-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S2x131072x128 : Shape := ⟨3, ![2, 131072, 128]⟩
abbrev S128x128 : Shape := ⟨2, ![128, 128]⟩
abbrev S128 : Shape := ⟨1, ![128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S2x131072x128 : S_.BroadcastsInDim S2x131072x128 (![] : Fin 0 → Fin S2x131072x128.rank)
  reducesTo_S2x131072x128_S_d0_1_2 : S2x131072x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128x128 .f32) (main_arg12 : FVec F S128x128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_v48 main_v49 main_v50

def fn_part1 {F : FTy → Type} [FloatOps F] (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S131072x128 .f32) (main_arg1 : FVec F S2x131072x128 .f32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S2x131072x128 .f32 := Host.absf main_arg1
  let main_cst_0 : FVec F S_ .f32 := constant S_ .f32 0x7F800000#32
  let main_v5 : FVec F S2x131072x128 .f32 := broadcastInDim S2x131072x128 ![] bcast_S_S2x131072x128 main_cst_0
  let main_v6 : IVec S2x131072x128 1 := cmpf .olt main_v4 main_v5
  let main_c_1 : IVec S_ 1 := constantI S_ 1 1#1
  let main_v7 : IVec S_ 1 := (fun x v => Host.reduce IntOp.andi x v reducesTo_S2x131072x128_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_v13 main_v16
-- ==== Kernel.lean ====
abbrev S131072x128 : Shape := ⟨2, ![131072, 128]⟩
abbrev S2x131072x128 : Shape := ⟨3, ![2, 131072, 128]⟩
abbrev S128x128 : Shape := ⟨2, ![128, 128]⟩
abbrev S128 : Shape := ⟨1, ![128]⟩
abbrev S128x512 : Shape := ⟨2, ![128, 512]⟩
abbrev S512 : Shape := ⟨1, ![512]⟩
abbrev S4096x128 : Shape := ⟨2, ![4096, 128]⟩
abbrev S2x4096x128 : Shape := ⟨3, ![2, 4096, 128]⟩
abbrev S1x4096x128 : Shape := ⟨3, ![1, 4096, 128]⟩
abbrev S4096x512 : Shape := ⟨2, ![4096, 512]⟩
abbrev S1x512 : Shape := ⟨2, ![1, 512]⟩
abbrev S4096x384 : Shape := ⟨2, ![4096, 384]⟩

abbrev nBuf : Space → Nat
  | .hbm => 20
  | .vmem => 9
  | .smem => 0
  | _ => 0

abbrev bufTy : (tb : Table) → Fin (tcTables nBuf tb) → BufTy
  | .hbm, ⟨0, _⟩ => ⟨S131072x128, .f32⟩
  | .hbm, ⟨1, _⟩ => ⟨S2x131072x128, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S128, .f32⟩
  | .hbm, ⟨14, _⟩ => ⟨S128x512, .f32⟩
  | .hbm, ⟨15, _⟩ => ⟨S128x512, .bf16⟩
  | .hbm, ⟨16, _⟩ => ⟨S128x512, .f32⟩
  | .hbm, ⟨17, _⟩ => ⟨S128x512, .bf16⟩
  | .hbm, ⟨18, _⟩ => ⟨S512, .f32⟩
  | .hbm, ⟨19, _⟩ => ⟨S2x131072x128, .f32⟩
  | .local _ .vmem, ⟨0, _⟩ => ⟨S4096x128, .f32⟩
  | .local _ .vmem, ⟨1, _⟩ => ⟨S4096x128, .f32⟩
  | .local _ .vmem, ⟨2, _⟩ => ⟨S2x4096x128, .f32⟩
  | .local _ .vmem, ⟨3, _⟩ => ⟨S2x4096x128, .f32⟩
  | .local _ .vmem, ⟨4, _⟩ => ⟨S128x512, .bf16⟩
  | .local _ .vmem, ⟨5, _⟩ => ⟨S128x512, .bf16⟩
  | .local _ .vmem, ⟨6, _⟩ => ⟨S512, .f32⟩
  | .local _ .vmem, ⟨7, _⟩ => ⟨S2x4096x128, .f32⟩
  | .local _ .vmem, ⟨8, _⟩ => ⟨S2x4096x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S128x128_S128x128_S128x128_S128x128_S128x512_d1 : Shape.Concatenates [S128x128, S128x128, S128x128, S128x128] S128x512 1
  bitsLt_bf16_f32 : FTy.bits .bf16 < FTy.bits .f32
  concatenates_S128_S128_S128_S128_S512_d0 : Shape.Concatenates [S128, S128, S128, S128] S512 0
  inb_S2x4096x128_S1x4096x128_0_0_0 : ∀ a, (![0, 0, 0] : Fin 3 → Nat) a + S1x4096x128.size a ≤ S2x4096x128.size a
  h_S1x4096x128 : 0 < S1x4096x128.numel
  shapeCasts_S1x4096x128_S4096x128 : S1x4096x128.ShapeCasts S4096x128
  inb_S2x4096x128_S1x4096x128_1_0_0 : ∀ a, (![1, 0, 0] : Fin 3 → Nat) a + S1x4096x128.size a ≤ S2x4096x128.size a
  inb_S4096x128_S4096x128_0_0 : ∀ a, (![0, 0] : Fin 2 → Nat) a + S4096x128.size a ≤ S4096x128.size a
  h_S4096x128 : 0 < S4096x128.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  broadcasts_S1x512_S4096x512 : S1x512.Broadcasts S4096x512
  slices_S4096x512_o0_0_S4096x384 : S4096x512.Slices ![0, 0] S4096x384
  slices_S4096x512_o0_384_S4096x128 : S4096x512.Slices ![0, 384] S4096x128
  slices_S4096x384_o0_0_S4096x128 : S4096x384.Slices ![0, 0] S4096x128
  slices_S4096x384_o0_128_S4096x128 : S4096x384.Slices ![0, 128] S4096x128
  slices_S4096x384_o0_256_S4096x128 : S4096x384.Slices ![0, 256] S4096x128
  shapeCasts_S4096x128_S1x4096x128 : S4096x128.ShapeCasts S1x4096x128
  dot_S4096x128_S128x512_S4096x512_1_0_0_1_n_n_wf : DotDims.WF S4096x128 S128x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x4096x128.size a ≤ S2x131072x128.size a
  hwx0_1 : ∀ i : grid0.Coords, EltTy.bits .f32 = 32 ∨ (Rect.block (s := S2x131072x128) S2x4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .bf16 = 32 ∨ (Rect.block (s := S128x512) S128x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .bf16 = 32 ∨ (Rect.block (s := S128x512) S128x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x4096x128.size a ≤ S2x131072x128.size a
  hwx0_5 : ∀ i : grid0.Coords, EltTy.bits .f32 = 32 ∨ (Rect.block (s := S2x131072x128) S2x4096x128.size (cc0_transform_5 i) (hinb0_5 i)).WholeWords (EltTy.packing .f32)

variable [Facts₀]

def dot_S4096x128_S128x512_S4096x512_1_0_0_1_n_n : DotDims S4096x128 S128x512 S4096x512 where
  lhsContracting := [1]
  rhsContracting := [0]
  lhsNonContracting := [0]
  rhsNonContracting := [1]
  lhsBatch := []
  rhsBatch := []
  wf := dot_S4096x128_S128x512_S4096x512_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S2x4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x128 : Shape := ⟨2, ![131072, 128]⟩
abbrev S2x131072x128 : Shape := ⟨3, ![2, 131072, 128]⟩
abbrev S128x128 : Shape := ⟨2, ![128, 128]⟩
abbrev S128 : Shape := ⟨1, ![128]⟩
abbrev S1x131072x128 : Shape := ⟨3, ![1, 131072, 128]⟩
abbrev S128x512 : Shape := ⟨2, ![128, 512]⟩
abbrev S512 : Shape := ⟨1, ![512]⟩
abbrev S131072x512 : Shape := ⟨2, ![131072, 512]⟩
abbrev S1x512 : Shape := ⟨2, ![1, 512]⟩
abbrev S_ : Shape := ⟨0, ![]⟩

abbrev nBuf : Space → Nat
  | .hbm => 64
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S2x131072x128, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S128, .f32⟩
  | .hbm, ⟨14, _⟩ => ⟨S1x131072x128, .f32⟩
  | .hbm, ⟨15, _⟩ => ⟨S131072x128, .f32⟩
  | .hbm, ⟨16, _⟩ => ⟨S1x131072x128, .f32⟩
  | .hbm, ⟨17, _⟩ => ⟨S131072x128, .f32⟩
  | .hbm, ⟨18, _⟩ => ⟨S128x512, .f32⟩
  | .hbm, ⟨19, _⟩ => ⟨S128x512, .f32⟩
  | .hbm, ⟨20, _⟩ => ⟨S512, .f32⟩
  | .hbm, ⟨21, _⟩ => ⟨S131072x512, .f32⟩
  | .hbm, ⟨22, _⟩ => ⟨S131072x512, .f32⟩
  | .hbm, ⟨23, _⟩ => ⟨S131072x512, .f32⟩
  | .hbm, ⟨24, _⟩ => ⟨S1x512, .f32⟩
  | .hbm, ⟨25, _⟩ => ⟨S131072x512, .f32⟩
  | .hbm, ⟨26, _⟩ => ⟨S131072x512, .f32⟩
  | .hbm, ⟨27, _⟩ => ⟨S131072x128, .f32⟩
  | .hbm, ⟨28, _⟩ => ⟨S131072x128, .f32⟩
  | .hbm, ⟨29, _⟩ => ⟨S131072x128, .f32⟩
  | .hbm, ⟨30, _⟩ => ⟨S131072x128, .f32⟩
  | .hbm, ⟨31, _⟩ => ⟨S131072x128, .f32⟩
  | .hbm, ⟨32, _⟩ => ⟨S131072x128, .f32⟩
  | .hbm, ⟨33, _⟩ => ⟨S_, .f32⟩
  | .hbm, ⟨34, _⟩ => ⟨S131072x128, .f32⟩
  | .hbm, ⟨35, _⟩ => ⟨S131072x128, .f32⟩
  | .hbm, ⟨36, _⟩ => ⟨S_, .f32⟩
  | .hbm, ⟨37, _⟩ => ⟨S131072x128, .f32⟩
  | .hbm, ⟨38, _⟩ => ⟨S131072x128, .f32⟩
  | .hbm, ⟨39, _⟩ => ⟨S131072x128, .f32⟩
  | .hbm, ⟨40, _⟩ => ⟨S131072x128, .f32⟩
  | .hbm, ⟨41, _⟩ => ⟨S_, .f32⟩
  | .hbm, ⟨42, _⟩ => ⟨S131072x128, .f32⟩
  | .hbm, ⟨43, _⟩ => ⟨S131072x128, .f32⟩
  | .hbm, ⟨44, _⟩ => ⟨S_, .f32⟩
  | .hbm, ⟨45, _⟩ => ⟨S131072x128, .f32⟩
  | .hbm, ⟨46, _⟩ => ⟨S131072x128, .f32⟩
  | .hbm, ⟨47, _⟩ => ⟨S131072x128, .f32⟩
  | .hbm, ⟨48, _⟩ => ⟨S131072x128, .f32⟩
  | .hbm, ⟨49, _⟩ => ⟨S_, .f32⟩
  | .hbm, ⟨50, _⟩ => ⟨S131072x128, .f32⟩
  | .hbm, ⟨51, _⟩ => ⟨S131072x128, .f32⟩
  | .hbm, ⟨52, _⟩ => ⟨S_, .f32⟩
  | .hbm, ⟨53, _⟩ => ⟨S131072x128, .f32⟩
  | .hbm, ⟨54, _⟩ => ⟨S131072x128, .f32⟩
  | .hbm, ⟨55, _⟩ => ⟨S131072x128, .f32⟩
  | .hbm, ⟨56, _⟩ => ⟨S131072x128, .f32⟩
  | .hbm, ⟨57, _⟩ => ⟨S131072x128, .f32⟩
  | .hbm, ⟨58, _⟩ => ⟨S131072x128, .f32⟩
  | .hbm, ⟨59, _⟩ => ⟨S131072x128, .f32⟩
  | .hbm, ⟨60, _⟩ => ⟨S131072x128, .f32⟩
  | .hbm, ⟨61, _⟩ => ⟨S1x131072x128, .f32⟩
  | .hbm, ⟨62, _⟩ => ⟨S1x131072x128, .f32⟩
  | .hbm, ⟨63, _⟩ => ⟨S2x131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_cst_0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_1 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]

class Facts₀ : Prop where
  slices_S2x131072x128_S1x131072x128_0_0_0 : S2x131072x128.Slices ![0, 0, 0] S1x131072x128
  shapeCasts_S1x131072x128_S131072x128 : S1x131072x128.ShapeCasts S131072x128
  slices_S2x131072x128_S1x131072x128_1_0_0 : S2x131072x128.Slices ![1, 0, 0] S1x131072x128
  concatenates_S128x128_S128x128_S128x128_S128x128_S128x512_d1 : Shape.Concatenates [S128x128, S128x128, S128x128, S128x128] S128x512 1
  concatenates_S128_S128_S128_S128_S512_d0 : Shape.Concatenates [S128, S128, S128, S128] S512 0
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  slices_S131072x512_S131072x128_0_0 : S131072x512.Slices ![0, 0] S131072x128
  slices_S131072x512_S131072x128_0_128 : S131072x512.Slices ![0, 128] S131072x128
  slices_S131072x512_S131072x128_0_256 : S131072x512.Slices ![0, 256] S131072x128
  slices_S131072x512_S131072x128_0_384 : S131072x512.Slices ![0, 384] S131072x128
  bcast_S_S131072x128 : S_.BroadcastsInDim S131072x128 (![] : Fin 0 → Fin S131072x128.rank)
  bcast_S131072x128_S1x131072x128_1_2 : S131072x128.BroadcastsInDim S1x131072x128 (![1, 2] : Fin 2 → Fin S1x131072x128.rank)
  concatenates_S1x131072x128_S1x131072x128_S2x131072x128_d0 : Shape.Concatenates [S1x131072x128, S1x131072x128] S2x131072x128 0
  dot_S131072x128_S128x512_S131072x512_1_0_0_1_n_n_wf : DotDims.WF S131072x128 S128x512 S131072x512 [1] [0] [0] [1] [] []

variable [Facts₀]

def dot_S131072x128_S128x512_S131072x512_1_0_0_1_n_n : DotDims S131072x128 S128x512 S131072x512 where
  lhsContracting := [1]
  rhsContracting := [0]
  lhsNonContracting := [0]
  rhsNonContracting := [1]
  lhsBatch := []
  rhsBatch := []
  wf := dot_S131072x128_S128x512_S131072x512_1_0_0_1_n_n_wf

class Facts : Prop extends Facts₀ where

variable [Facts]
-- ==== Proof.KernelCell.lean ====
/-
  The launch of the single-step LSTM cell, at any reading `F` of the floats.

  @main first builds three arrays on the host: the four input weight matrices side by side, W : [128, 512]; the four
  recurrent weight matrices side by side, U : [128, 512] (each then changed to the 16-bit format); and the four biases
  end to end, b : [512]. It then runs ONE region over 32 blocks of 4096 rows. At block `t` the body is handed rows
  4096·t … 4096·t + 4095 of x : [131072, 128], the same rows of both slabs of the state [2, 131072, 128] (slab 0 the
  hidden vector, slab 1 the memory), and W, U, b whole; it writes the same rows of both slabs of the result.

  Proved here: what the region finds in every array (`entry`: the arguments as launched, W, U, b as the host lines
  computed them), what the body leaves in the result's staging buffer (`cellOut`: two stores, the new hidden vector
  into slab 0 and the new memory into slab 1, which together tile the buffer), the body's triple, and from it that
  every weakly fair execution of @main terminates without a fault with every argument array unchanged and the
  result array equal to the blocks written back (`run_main`, `frame`).
-/
import proofs.«117668_j72954314489889_2_alg».proof.Proof.Gen.Kernel.Launch
import proofs.«117668_j72954314489889_2_alg».proof.Proof.Gen.Kernel.Skeleton
import proofs.«117668_j72954314489889_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch contents after the five host lines. -/
abbrev entry (c : Dev nD) (b : Ref sig .tc) : Buf (Elt F) ((c : Thread nD τ).loc b) :=
  StableHlo.after (List.flatten [hostOps0]) (fun b => m (c, b)) b

/-- The host lines allocate nothing. -/
theorem prefix_fresh : (hostOps0 : List (HloOp τ sig (Elt F))).Forall fun op => op.fresh = ∅ := by
  simp only [List.Forall]; repeat' constructor

/-- @main is the five host lines and then the region, which is entered at `entry`. -/
theorem main_to_region (𝒱₀ : Variants) :
    Pipeline.HMain (Ix := Unit) (Name := ℕ) (U := UR sig nD τ) (Lvl := ℕ) cfgs 0 defs₀ 𝒱₀ m (main (F := F)) (entry m) :=
  Pipeline.hmain_prefixes cfgs 0 defs₀ 𝒱₀ m main [hostOps0] (show List.Forall _ [hostOps0] from hostOps0_sub)
    (show List.Forall _ [hostOps0] from prefix_fresh) main_chain

/-- A buffer none of the five host lines writes is found as launched. The lines write `main_v0 … main_v4` only. -/
theorem entry_of_not_written (c : Dev nD) (b : Ref sig .tc)
    (h0 : b ≠ main_v0) (h1 : b ≠ main_v1) (h2 : b ≠ main_v2) (h3 : b ≠ main_v3) (h4 : b ≠ main_v4) :
    entry m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nary_writes, StableHlo.unary_writes, Finset.mem_singleton]
    exact ⟨StableHlo.devRef_ne_of_ne h0, StableHlo.devRef_ne_of_ne h1, StableHlo.devRef_ne_of_ne h2,
      StableHlo.devRef_ne_of_ne h3, StableHlo.devRef_ne_of_ne h4⟩))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's current staging buffer holds its block at every point, fetched there or not. -/
theorem staged0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds its block at every point, fetched there or not. -/
theorem staged1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's current staging buffer holds its block at every point, fetched there or not. -/
theorem staged2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's current staging buffer holds its block at every point, fetched there or not. -/
theorem staged3_of {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's current staging buffer holds its block at every point, fetched there or not. -/
theorem staged4_of {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from a run of the region -/

/-- In a final state where every array of the pipeline is at what the proof data says and every other buffer is as the
    region found it, the fourteen argument arrays are as launched: x and the state are staged inputs, which the
    pipeline only reads; the twelve weights and biases are staged by no window; and no host line writes any of the
    fourteen. -/
theorem kept_of_post (dats : (p : Fin 1) → (c : Dev nD) → Dat τ (Elt F) Unit ℕ (UR sig nD τ) ℕ (cfgs p) c)
    (hA : ∀ c w, (dats 0 c).A w = entry m c (Pipeline.arrRef spec0 w))
    (r : PUnit × MemSt nD τ sig (Elt F)) (h : Pipeline.FramePost cfgs dats 0 (entry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨((h c).1 0).trans (((dats 0 c).arrAt_in 0 rfl _).trans ((hA c 0).trans (entry_of_not_written m c main_arg0 (by decide) (by decide) (by decide) (by decide) (by decide)))),
      ((h c).1 1).trans (((dats 0 c).arrAt_in 1 rfl _).trans ((hA c 1).trans (entry_of_not_written m c main_arg1 (by decide) (by decide) (by decide) (by decide) (by decide)))),
      ((h c).2 main_arg2 (Pipeline.mem_restRefs_of main_arg2 (by decide) (by decide))).trans (entry_of_not_written m c main_arg2 (by decide) (by decide) (by decide) (by decide) (by decide)),
      ((h c).2 main_arg3 (Pipeline.mem_restRefs_of main_arg3 (by decide) (by decide))).trans (entry_of_not_written m c main_arg3 (by decide) (by decide) (by decide) (by decide) (by decide)),
      ((h c).2 main_arg4 (Pipeline.mem_restRefs_of main_arg4 (by decide) (by decide))).trans (entry_of_not_written m c main_arg4 (by decide) (by decide) (by decide) (by decide) (by decide)),
      ((h c).2 main_arg5 (Pipeline.mem_restRefs_of main_arg5 (by decide) (by decide))).trans (entry_of_not_written m c main_arg5 (by decide) (by decide) (by decide) (by decide) (by decide)),
      ((h c).2 main_arg6 (Pipeline.mem_restRefs_of main_arg6 (by decide) (by decide))).trans (entry_of_not_written m c main_arg6 (by decide) (by decide) (by decide) (by decide) (by decide)),
      ((h c).2 main_arg7 (Pipeline.mem_restRefs_of main_arg7 (by decide) (by decide))).trans (entry_of_not_written m c main_arg7 (by decide) (by decide) (by decide) (by decide) (by decide)),
      ((h c).2 main_arg8 (Pipeline.mem_restRefs_of main_arg8 (by decide) (by decide))).trans (entry_of_not_written m c main_arg8 (by decide) (by decide) (by decide) (by decide) (by decide)),
      ((h c).2 main_arg9 (Pipeline.mem_restRefs_of main_arg9 (by decide) (by decide))).trans (entry_of_not_written m c main_arg9 (by decide) (by decide) (by decide) (by decide) (by decide)),
      ((h c).2 main_arg10 (Pipeline.mem_restRefs_of main_arg10 (by decide) (by decide))).trans (entry_of_not_written m c main_arg10 (by decide) (by decide) (by decide) (by decide) (by decide)),
      ((h c).2 main_arg11 (Pipeline.mem_restRefs_of main_arg11 (by decide) (by decide))).trans (entry_of_not_written m c main_arg11 (by decide) (by decide) (by decide) (by decide) (by decide)),
      ((h c).2 main_arg12 (Pipeline.mem_restRefs_of main_arg12 (by decide) (by decide))).trans (entry_of_not_written m c main_arg12 (by decide) (by decide) (by decide) (by decide) (by decide)),
      ((h c).2 main_arg13 (Pipeline.mem_restRefs_of main_arg13 (by decide) (by decide))).trans (entry_of_not_written m c main_arg13 (by decide) (by decide) (by decide) (by decide) (by decide))⟩

/-- So a run of @main that ends in such states is a run that leaves the fourteen argument arrays as launched. -/
theorem frame_of_run (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => kept_of_post m dats hA r h c) h

/-! ## The body's accesses -/

/-- Slab 0 (the hidden vector) and slab 1 (the memory) of a [2, 4096, 128] staging buffer. -/
abbrev slabH : Rect S2x4096x128 := Rect.unit (s := S2x4096x128) ![0, 0, 0] S1x4096x128.size inb_S2x4096x128_S1x4096x128_0_0_0
abbrev slabC : Rect S2x4096x128 := Rect.unit (s := S2x4096x128) ![1, 0, 0] S1x4096x128.size inb_S2x4096x128_S1x4096x128_1_0_0
/-- The whole of the x block, of a weight matrix, of the bias. -/
abbrev allX : Rect S4096x128 := Rect.unit (s := S4096x128) ![0, 0] S4096x128.size inb_S4096x128_S4096x128_0_0
abbrev allW : Rect S128x512 := Rect.unit (s := S128x512) ![0, 0] S128x512.size inb_S128x512_S128x512_0_0
abbrev allB : Rect S512 := Rect.unit (s := S512) ![0] S512.size inb_S512_S512_0

/-! ## What the body leaves in the result's staging buffer -/

/-- The result's staging buffer after the body, from the five input blocks: the new memory stored into slab 1 (the
    later store, listed first) and the new hidden vector stored into slab 0. -/
def cellOut (x0 : Vec F S4096x128 .f32) (x1 : Vec F S2x4096x128 .f32) (x2 : Vec F S128x512 .bf16) (x3 : Vec F S128x512 .bf16) (x4 : Vec F S512 .f32) : Vec F S2x4096x128 .f32 :=
  View.canon [⟨slabC, k0_pay5 (View.ld x1 slabH) (View.ld x1 slabC) (View.ld x0 allX) (View.ld x2 allW) (View.ld x3 allW) (View.ld x4 allB)⟩,
    ⟨slabH, k0_pay4 (View.ld x1 slabH) (View.ld x1 slabC) (View.ld x0 allX) (View.ld x2 allW) (View.ld x3 allW) (View.ld x4 allB)⟩]

/-- The two slabs tile the buffer, so every index lies in one of them. -/
theorem slabs_cover (p0 : Vec F S1x4096x128 .f32) (p1 : Vec F S1x4096x128 .f32) (y : S2x4096x128.Idx) :
    ∃ pc ∈ ([⟨slabC, p0⟩, ⟨slabH, p1⟩] : List (View.Piece (Elt F) S2x4096x128 .f32)), y ∈ pc.1.set :=
  View.cover_of_tiled [⟨slabC, p0⟩, ⟨slabH, p1⟩] S1x4096x128.size (by rfl) y

/-! ## The body's triple -/

set_option maxHeartbeats 1000000 in
/-- The body on whole staging buffers, the five inputs' at contents `x0 … x4` and the result's at anything, runs to a
    continuation that holds the inputs' as they were and the result's at `cellOut` of them. The body also loads each
    slab of the result's buffer once and uses neither value; those loads change nothing. -/
theorem body_triple (c : Dev nD) (E : Set ℕ) (i : grid0.Coords)
    (arg1 : Memref sig .tc .vmem S4096x128 .f32) (harg1 : arg1.IsWhole) (arg2 : Memref sig .tc .vmem S2x4096x128 .f32) (harg2 : arg2.IsWhole)
    (arg3 : Memref sig .tc .vmem S128x512 .bf16) (harg3 : arg3.IsWhole) (arg4 : Memref sig .tc .vmem S128x512 .bf16) (harg4 : arg4.IsWhole)
    (arg5 : Memref sig .tc .vmem S512 .f32) (harg5 : arg5.IsWhole) (arg6 : Memref sig .tc .vmem S2x4096x128 .f32) (harg6 : arg6.IsWhole)
    (x0 : Vec F S4096x128 .f32) (x1 : Vec F S2x4096x128 .f32) (x2 : Vec F S128x512 .bf16) (x3 : Vec F S128x512 .bf16) (x4 : Vec F S512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (cellOut x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (slabs_cover _ _)

/-! ## The pipeline's proof data -/

/-- The proof data of the pipeline on core `c`: the arrays as the region finds them; after the body at point `t` each
    input's buffer still at its block and the result's at `cellOut` of the five input blocks; the invariant the scoped
    rest and the random-number register, which the body never touches; nothing owed; full shares. -/
def cellData (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => cellOut (blockAt m c 0 t) (blockAt m c 1 t) (blockAt m c 2 t) (blockAt m c 3 t) (blockAt m c 4 t)
  Φ _ := Pipeline.ΦA spec0 c
  q _ := fullShare
  owed _ := 0

/-- The proof data's arrays are the entry contents. -/
theorem data_arrays (c : Dev nD) (w : Fin cfg0.W) : (cellData m 0 c).A w = entry m c (Pipeline.arrRef spec0 w) := by
  dsimp only [cellData]

/-- What the body leaves, window by window. -/
theorem after0 (c : Dev nD) (t : Fin cfg0.N) : (cellData m 0 c).after 0 t = blockAt m c 0 t := by dsimp only [cellData]
theorem after1 (c : Dev nD) (t : Fin cfg0.N) : (cellData m 0 c).after 1 t = blockAt m c 1 t := by dsimp only [cellData]
theorem after2 (c : Dev nD) (t : Fin cfg0.N) : (cellData m 0 c).after 2 t = blockAt m c 2 t := by dsimp only [cellData]
theorem after3 (c : Dev nD) (t : Fin cfg0.N) : (cellData m 0 c).after 3 t = blockAt m c 3 t := by dsimp only [cellData]
theorem after4 (c : Dev nD) (t : Fin cfg0.N) : (cellData m 0 c).after 4 t = blockAt m c 4 t := by dsimp only [cellData]
theorem after5 (c : Dev nD) (t : Fin cfg0.N) : (cellData m 0 c).after 5 t
    = cellOut (blockAt m c 0 t) (blockAt m c 1 t) (blockAt m c 2 t) (blockAt m c 3 t) (blockAt m c 4 t) := by dsimp only [cellData]

/-- Each input's current staging buffer holds its block at every point. -/
theorem staged0 (c : Dev nD) (t : Fin cfg0.N) (d) : (cellData m 0 c).before 0 t d = blockAt m c 0 t :=
  staged0_of m (cellData m 0 c) (data_arrays m c 0) (after0 m c) t d
theorem staged1 (c : Dev nD) (t : Fin cfg0.N) (d) : (cellData m 0 c).before 1 t d = blockAt m c 1 t :=
  staged1_of m (cellData m 0 c) (data_arrays m c 1) (after1 m c) t d
theorem staged2 (c : Dev nD) (t : Fin cfg0.N) (d) : (cellData m 0 c).before 2 t d = blockAt m c 2 t :=
  staged2_of m (cellData m 0 c) (data_arrays m c 2) (after2 m c) t d
theorem staged3 (c : Dev nD) (t : Fin cfg0.N) (d) : (cellData m 0 c).before 3 t d = blockAt m c 3 t :=
  staged3_of m (cellData m 0 c) (data_arrays m c 3) (after3 m c) t d
theorem staged4 (c : Dev nD) (t : Fin cfg0.N) (d) : (cellData m 0 c).before 4 t d = blockAt m c 4 t :=
  staged4_of m (cellData m 0 c) (data_arrays m c 4) (after4 m c) t d

/-! ## The body obligation, at a generic point -/

/-- What the body is called with at point `t`, the six windows one by one, -/
def bodyPre (c : Dev nD) (t : Fin cfg0.N) : sProp 𝕄 :=
  iprop((cellData m 0 c).Φ t.castSucc ∗ (cellData m 0 c).owesAt () t.castSucc
    ∗ (∃ d, owns (c : Thread nD τ) (st0_0 t) fullShare ((cellData m 0 c).before 0 t d))
    ∗ (∃ d, owns (c : Thread nD τ) (st0_1 t) fullShare ((cellData m 0 c).before 1 t d))
    ∗ (∃ d, owns (c : Thread nD τ) (st0_2 t) fullShare ((cellData m 0 c).before 2 t d))
    ∗ (∃ d, owns (c : Thread nD τ) (st0_3 t) fullShare ((cellData m 0 c).before 3 t d))
    ∗ (∃ d, owns (c : Thread nD τ) (st0_4 t) fullShare ((cellData m 0 c).before 4 t d))
    ∗ (∃ d, owns (c : Thread nD τ) (st0_5 t) fullShare ((cellData m 0 c).before 5 t d)))

/-- and what it returns. -/
def bodyPost (c : Dev nD) (t : Fin cfg0.N) : sProp 𝕄 :=
  iprop((cellData m 0 c).Φ t.succ ∗ (cellData m 0 c).owesAt () t.succ
    ∗ owns (c : Thread nD τ) (st0_0 t) fullShare ((cellData m 0 c).after 0 t)
    ∗ owns (c : Thread nD τ) (st0_1 t) fullShare ((cellData m 0 c).after 1 t)
    ∗ owns (c : Thread nD τ) (st0_2 t) fullShare ((cellData m 0 c).after 2 t)
    ∗ owns (c : Thread nD τ) (st0_3 t) fullShare ((cellData m 0 c).after 3 t)
    ∗ owns (c : Thread nD τ) (st0_4 t) fullShare ((cellData m 0 c).after 4 t)
    ∗ owns (c : Thread nD τ) (st0_5 t) fullShare ((cellData m 0 c).after 5 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged0, staged1, staged2, staged3, staged4]
  rw [show (cellData m 0 c).Φ t.succ = (cellData m 0 c).Φ t.castSucc from rfl,
    show (cellData m 0 c).owesAt () t.succ = (cellData m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (body_triple c Set.univ (grid0.coords t) _ _ _ _ _ _ _ _ _ _ _ _ (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (cellData (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main terminates without a fault, and every
    final state has every array of the pipeline at what the proof data computes (the result: the blocks written
    back) and every other unscoped buffer as the region found it. -/
theorem run_main : θ_run defs (onTc (τ := τ) (main (F := F))) (s₀ m ρ) (Pipeline.FramePost cfgs (cellData m) 0 (entry m)) :=
  Pipeline.θ_run_frame cfgs (cellData m) (0 : Fin 1) launch0 defs₀ Variants.none m ρ main
    (hbody := fun c => (body_obligation m c).loose) (hshare := fun c => (cellData m 0 c).share_full fun _ => rfl)
    (howed := fun _ _ => rfl) (V := entry m) (hmain := main_to_region m Variants.none) (hA := data_arrays m) (hΦ := fun _ _ => rfl)

/-- The frame: @main runs to the end and leaves its fourteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of_run m ρ (cellData m) (data_arrays m) (run_main m ρ)

end Cert.Kernel.Cell

end
-- ==== Proof.KernelIdealCell.lean ====
/-
  The launch of the single-step LSTM cell, at any reading `F` of the floats.

  @main first builds three arrays on the host: the four input weight matrices side by side, W : [128, 512]; the four
  recurrent weight matrices side by side, U : [128, 512] (each then changed to the 16-bit format); and the four biases
  end to end, b : [512]. It then runs ONE region over 32 blocks of 4096 rows. At block `t` the body is handed rows
  4096·t … 4096·t + 4095 of x : [131072, 128], the same rows of both slabs of the state [2, 131072, 128] (slab 0 the
  hidden vector, slab 1 the memory), and W, U, b whole; it writes the same rows of both slabs of the result.

  Proved here: what the region finds in every array (`entry`: the arguments as launched, W, U, b as the host lines
  computed them), what the body leaves in the result's staging buffer (`cellOut`: two stores, the new hidden vector
  into slab 0 and the new memory into slab 1, which together tile the buffer), the body's triple, and from it that
  every weakly fair execution of @main terminates without a fault with every argument array unchanged and the
  result array equal to the blocks written back (`run_main`, `frame`).
-/
import proofs.«117668_j72954314489889_2_alg».proof.Proof.Gen.KernelIdeal.Launch
import proofs.«117668_j72954314489889_2_alg».proof.Proof.Gen.KernelIdeal.Skeleton
import proofs.«117668_j72954314489889_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch contents after the five host lines. -/
abbrev entry (c : Dev nD) (b : Ref sig .tc) : Buf (Elt F) ((c : Thread nD τ).loc b) :=
  StableHlo.after (List.flatten [hostOps0]) (fun b => m (c, b)) b

/-- The host lines allocate nothing. -/
theorem prefix_fresh : (hostOps0 : List (HloOp τ sig (Elt F))).Forall fun op => op.fresh = ∅ := by
  simp only [List.Forall]; repeat' constructor

/-- @main is the five host lines and then the region, which is entered at `entry`. -/
theorem main_to_region (𝒱₀ : Variants) :
    Pipeline.HMain (Ix := Unit) (Name := ℕ) (U := UR sig nD τ) (Lvl := ℕ) cfgs 0 defs₀ 𝒱₀ m (main (F := F)) (entry m) :=
  Pipeline.hmain_prefixes cfgs 0 defs₀ 𝒱₀ m main [hostOps0] (show List.Forall _ [hostOps0] from hostOps0_sub)
    (show List.Forall _ [hostOps0] from prefix_fresh) main_chain

/-- A buffer none of the five host lines writes is found as launched. The lines write `main_v0 … main_v4` only. -/
theorem entry_of_not_written (c : Dev nD) (b : Ref sig .tc)
    (h0 : b ≠ main_v0) (h1 : b ≠ main_v1) (h2 : b ≠ main_v2) (h3 : b ≠ main_v3) (h4 : b ≠ main_v4) :
    entry m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nary_writes, StableHlo.unary_writes, Finset.mem_singleton]
    exact ⟨StableHlo.devRef_ne_of_ne h0, StableHlo.devRef_ne_of_ne h1, StableHlo.devRef_ne_of_ne h2,
      StableHlo.devRef_ne_of_ne h3, StableHlo.devRef_ne_of_ne h4⟩))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's current staging buffer holds its block at every point, fetched there or not. -/
theorem staged0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds its block at every point, fetched there or not. -/
theorem staged1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's current staging buffer holds its block at every point, fetched there or not. -/
theorem staged2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's current staging buffer holds its block at every point, fetched there or not. -/
theorem staged3_of {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's current staging buffer holds its block at every point, fetched there or not. -/
theorem staged4_of {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from a run of the region -/

/-- In a final state where every array of the pipeline is at what the proof data says and every other buffer is as the
    region found it, the fourteen argument arrays are as launched: x and the state are staged inputs, which the
    pipeline only reads; the twelve weights and biases are staged by no window; and no host line writes any of the
    fourteen. -/
theorem kept_of_post (dats : (p : Fin 1) → (c : Dev nD) → Dat τ (Elt F) Unit ℕ (UR sig nD τ) ℕ (cfgs p) c)
    (hA : ∀ c w, (dats 0 c).A w = entry m c (Pipeline.arrRef spec0 w))
    (r : PUnit × MemSt nD τ sig (Elt F)) (h : Pipeline.FramePost cfgs dats 0 (entry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨((h c).1 0).trans (((dats 0 c).arrAt_in 0 rfl _).trans ((hA c 0).trans (entry_of_not_written m c main_arg0 (by decide) (by decide) (by decide) (by decide) (by decide)))),
      ((h c).1 1).trans (((dats 0 c).arrAt_in 1 rfl _).trans ((hA c 1).trans (entry_of_not_written m c main_arg1 (by decide) (by decide) (by decide) (by decide) (by decide)))),
      ((h c).2 main_arg2 (Pipeline.mem_restRefs_of main_arg2 (by decide) (by decide))).trans (entry_of_not_written m c main_arg2 (by decide) (by decide) (by decide) (by decide) (by decide)),
      ((h c).2 main_arg3 (Pipeline.mem_restRefs_of main_arg3 (by decide) (by decide))).trans (entry_of_not_written m c main_arg3 (by decide) (by decide) (by decide) (by decide) (by decide)),
      ((h c).2 main_arg4 (Pipeline.mem_restRefs_of main_arg4 (by decide) (by decide))).trans (entry_of_not_written m c main_arg4 (by decide) (by decide) (by decide) (by decide) (by decide)),
      ((h c).2 main_arg5 (Pipeline.mem_restRefs_of main_arg5 (by decide) (by decide))).trans (entry_of_not_written m c main_arg5 (by decide) (by decide) (by decide) (by decide) (by decide)),
      ((h c).2 main_arg6 (Pipeline.mem_restRefs_of main_arg6 (by decide) (by decide))).trans (entry_of_not_written m c main_arg6 (by decide) (by decide) (by decide) (by decide) (by decide)),
      ((h c).2 main_arg7 (Pipeline.mem_restRefs_of main_arg7 (by decide) (by decide))).trans (entry_of_not_written m c main_arg7 (by decide) (by decide) (by decide) (by decide) (by decide)),
      ((h c).2 main_arg8 (Pipeline.mem_restRefs_of main_arg8 (by decide) (by decide))).trans (entry_of_not_written m c main_arg8 (by decide) (by decide) (by decide) (by decide) (by decide)),
      ((h c).2 main_arg9 (Pipeline.mem_restRefs_of main_arg9 (by decide) (by decide))).trans (entry_of_not_written m c main_arg9 (by decide) (by decide) (by decide) (by decide) (by decide)),
      ((h c).2 main_arg10 (Pipeline.mem_restRefs_of main_arg10 (by decide) (by decide))).trans (entry_of_not_written m c main_arg10 (by decide) (by decide) (by decide) (by decide) (by decide)),
      ((h c).2 main_arg11 (Pipeline.mem_restRefs_of main_arg11 (by decide) (by decide))).trans (entry_of_not_written m c main_arg11 (by decide) (by decide) (by decide) (by decide) (by decide)),
      ((h c).2 main_arg12 (Pipeline.mem_restRefs_of main_arg12 (by decide) (by decide))).trans (entry_of_not_written m c main_arg12 (by decide) (by decide) (by decide) (by decide) (by decide)),
      ((h c).2 main_arg13 (Pipeline.mem_restRefs_of main_arg13 (by decide) (by decide))).trans (entry_of_not_written m c main_arg13 (by decide) (by decide) (by decide) (by decide) (by decide))⟩

/-- So a run of @main that ends in such states is a run that leaves the fourteen argument arrays as launched. -/
theorem frame_of_run (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => kept_of_post m dats hA r h c) h

/-! ## The body's accesses -/

/-- Slab 0 (the hidden vector) and slab 1 (the memory) of a [2, 4096, 128] staging buffer. -/
abbrev slabH : Rect S2x4096x128 := Rect.unit (s := S2x4096x128) ![0, 0, 0] S1x4096x128.size inb_S2x4096x128_S1x4096x128_0_0_0
abbrev slabC : Rect S2x4096x128 := Rect.unit (s := S2x4096x128) ![1, 0, 0] S1x4096x128.size inb_S2x4096x128_S1x4096x128_1_0_0
/-- The whole of the x block, of a weight matrix, of the bias. -/
abbrev allX : Rect S4096x128 := Rect.unit (s := S4096x128) ![0, 0] S4096x128.size inb_S4096x128_S4096x128_0_0
abbrev allW : Rect S128x512 := Rect.unit (s := S128x512) ![0, 0] S128x512.size inb_S128x512_S128x512_0_0
abbrev allB : Rect S512 := Rect.unit (s := S512) ![0] S512.size inb_S512_S512_0

/-! ## What the body leaves in the result's staging buffer -/

/-- The result's staging buffer after the body, from the five input blocks: the new memory stored into slab 1 (the
    later store, listed first) and the new hidden vector stored into slab 0. -/
def cellOut (x0 : Vec F S4096x128 .f32) (x1 : Vec F S2x4096x128 .f32) (x2 : Vec F S128x512 .bf16) (x3 : Vec F S128x512 .bf16) (x4 : Vec F S512 .f32) : Vec F S2x4096x128 .f32 :=
  View.canon [⟨slabC, k0_pay5 (View.ld x1 slabH) (View.ld x1 slabC) (View.ld x0 allX) (View.ld x2 allW) (View.ld x3 allW) (View.ld x4 allB)⟩,
    ⟨slabH, k0_pay4 (View.ld x1 slabH) (View.ld x1 slabC) (View.ld x0 allX) (View.ld x2 allW) (View.ld x3 allW) (View.ld x4 allB)⟩]

/-- The two slabs tile the buffer, so every index lies in one of them. -/
theorem slabs_cover (p0 : Vec F S1x4096x128 .f32) (p1 : Vec F S1x4096x128 .f32) (y : S2x4096x128.Idx) :
    ∃ pc ∈ ([⟨slabC, p0⟩, ⟨slabH, p1⟩] : List (View.Piece (Elt F) S2x4096x128 .f32)), y ∈ pc.1.set :=
  View.cover_of_tiled [⟨slabC, p0⟩, ⟨slabH, p1⟩] S1x4096x128.size (by rfl) y

/-! ## The body's triple -/

set_option maxHeartbeats 1000000 in
/-- The body on whole staging buffers, the five inputs' at contents `x0 … x4` and the result's at anything, runs to a
    continuation that holds the inputs' as they were and the result's at `cellOut` of them. The body also loads each
    slab of the result's buffer once and uses neither value; those loads change nothing. -/
theorem body_triple (c : Dev nD) (E : Set ℕ) (i : grid0.Coords)
    (arg1 : Memref sig .tc .vmem S4096x128 .f32) (harg1 : arg1.IsWhole) (arg2 : Memref sig .tc .vmem S2x4096x128 .f32) (harg2 : arg2.IsWhole)
    (arg3 : Memref sig .tc .vmem S128x512 .bf16) (harg3 : arg3.IsWhole) (arg4 : Memref sig .tc .vmem S128x512 .bf16) (harg4 : arg4.IsWhole)
    (arg5 : Memref sig .tc .vmem S512 .f32) (harg5 : arg5.IsWhole) (arg6 : Memref sig .tc .vmem S2x4096x128 .f32) (harg6 : arg6.IsWhole)
    (x0 : Vec F S4096x128 .f32) (x1 : Vec F S2x4096x128 .f32) (x2 : Vec F S128x512 .bf16) (x3 : Vec F S128x512 .bf16) (x4 : Vec F S512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (cellOut x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (slabs_cover _ _)

/-! ## The pipeline's proof data -/

/-- The proof data of the pipeline on core `c`: the arrays as the region finds them; after the body at point `t` each
    input's buffer still at its block and the result's at `cellOut` of the five input blocks; the invariant the scoped
    rest and the random-number register, which the body never touches; nothing owed; full shares. -/
def cellData (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => cellOut (blockAt m c 0 t) (blockAt m c 1 t) (blockAt m c 2 t) (blockAt m c 3 t) (blockAt m c 4 t)
  Φ _ := Pipeline.ΦA spec0 c
  q _ := fullShare
  owed _ := 0

/-- The proof data's arrays are the entry contents. -/
theorem data_arrays (c : Dev nD) (w : Fin cfg0.W) : (cellData m 0 c).A w = entry m c (Pipeline.arrRef spec0 w) := by
  dsimp only [cellData]

/-- What the body leaves, window by window. -/
theorem after0 (c : Dev nD) (t : Fin cfg0.N) : (cellData m 0 c).after 0 t = blockAt m c 0 t := by dsimp only [cellData]
theorem after1 (c : Dev nD) (t : Fin cfg0.N) : (cellData m 0 c).after 1 t = blockAt m c 1 t := by dsimp only [cellData]
theorem after2 (c : Dev nD) (t : Fin cfg0.N) : (cellData m 0 c).after 2 t = blockAt m c 2 t := by dsimp only [cellData]
theorem after3 (c : Dev nD) (t : Fin cfg0.N) : (cellData m 0 c).after 3 t = blockAt m c 3 t := by dsimp only [cellData]
theorem after4 (c : Dev nD) (t : Fin cfg0.N) : (cellData m 0 c).after 4 t = blockAt m c 4 t := by dsimp only [cellData]
theorem after5 (c : Dev nD) (t : Fin cfg0.N) : (cellData m 0 c).after 5 t
    = cellOut (blockAt m c 0 t) (blockAt m c 1 t) (blockAt m c 2 t) (blockAt m c 3 t) (blockAt m c 4 t) := by dsimp only [cellData]

/-- Each input's current staging buffer holds its block at every point. -/
theorem staged0 (c : Dev nD) (t : Fin cfg0.N) (d) : (cellData m 0 c).before 0 t d = blockAt m c 0 t :=
  staged0_of m (cellData m 0 c) (data_arrays m c 0) (after0 m c) t d
theorem staged1 (c : Dev nD) (t : Fin cfg0.N) (d) : (cellData m 0 c).before 1 t d = blockAt m c 1 t :=
  staged1_of m (cellData m 0 c) (data_arrays m c 1) (after1 m c) t d
theorem staged2 (c : Dev nD) (t : Fin cfg0.N) (d) : (cellData m 0 c).before 2 t d = blockAt m c 2 t :=
  staged2_of m (cellData m 0 c) (data_arrays m c 2) (after2 m c) t d
theorem staged3 (c : Dev nD) (t : Fin cfg0.N) (d) : (cellData m 0 c).before 3 t d = blockAt m c 3 t :=
  staged3_of m (cellData m 0 c) (data_arrays m c 3) (after3 m c) t d
theorem staged4 (c : Dev nD) (t : Fin cfg0.N) (d) : (cellData m 0 c).before 4 t d = blockAt m c 4 t :=
  staged4_of m (cellData m 0 c) (data_arrays m c 4) (after4 m c) t d

/-! ## The body obligation, at a generic point -/

/-- What the body is called with at point `t`, the six windows one by one, -/
def bodyPre (c : Dev nD) (t : Fin cfg0.N) : sProp 𝕄 :=
  iprop((cellData m 0 c).Φ t.castSucc ∗ (cellData m 0 c).owesAt () t.castSucc
    ∗ (∃ d, owns (c : Thread nD τ) (st0_0 t) fullShare ((cellData m 0 c).before 0 t d))
    ∗ (∃ d, owns (c : Thread nD τ) (st0_1 t) fullShare ((cellData m 0 c).before 1 t d))
    ∗ (∃ d, owns (c : Thread nD τ) (st0_2 t) fullShare ((cellData m 0 c).before 2 t d))
    ∗ (∃ d, owns (c : Thread nD τ) (st0_3 t) fullShare ((cellData m 0 c).before 3 t d))
    ∗ (∃ d, owns (c : Thread nD τ) (st0_4 t) fullShare ((cellData m 0 c).before 4 t d))
    ∗ (∃ d, owns (c : Thread nD τ) (st0_5 t) fullShare ((cellData m 0 c).before 5 t d)))

/-- and what it returns. -/
def bodyPost (c : Dev nD) (t : Fin cfg0.N) : sProp 𝕄 :=
  iprop((cellData m 0 c).Φ t.succ ∗ (cellData m 0 c).owesAt () t.succ
    ∗ owns (c : Thread nD τ) (st0_0 t) fullShare ((cellData m 0 c).after 0 t)
    ∗ owns (c : Thread nD τ) (st0_1 t) fullShare ((cellData m 0 c).after 1 t)
    ∗ owns (c : Thread nD τ) (st0_2 t) fullShare ((cellData m 0 c).after 2 t)
    ∗ owns (c : Thread nD τ) (st0_3 t) fullShare ((cellData m 0 c).after 3 t)
    ∗ owns (c : Thread nD τ) (st0_4 t) fullShare ((cellData m 0 c).after 4 t)
    ∗ owns (c : Thread nD τ) (st0_5 t) fullShare ((cellData m 0 c).after 5 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged0, staged1, staged2, staged3, staged4]
  rw [show (cellData m 0 c).Φ t.succ = (cellData m 0 c).Φ t.castSucc from rfl,
    show (cellData m 0 c).owesAt () t.succ = (cellData m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (body_triple c Set.univ (grid0.coords t) _ _ _ _ _ _ _ _ _ _ _ _ (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (cellData (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main terminates without a fault, and every
    final state has every array of the pipeline at what the proof data computes (the result: the blocks written
    back) and every other unscoped buffer as the region found it. -/
theorem run_main : θ_run defs (onTc (τ := τ) (main (F := F))) (s₀ m ρ) (Pipeline.FramePost cfgs (cellData m) 0 (entry m)) :=
  Pipeline.θ_run_frame cfgs (cellData m) (0 : Fin 1) launch0 defs₀ Variants.none m ρ main
    (hbody := fun c => (body_obligation m c).loose) (hshare := fun c => (cellData m 0 c).share_full fun _ => rfl)
    (howed := fun _ _ => rfl) (V := entry m) (hmain := main_to_region m Variants.none) (hA := data_arrays m) (hΦ := fun _ _ => rfl)

/-- The frame: @main runs to the end and leaves its fourteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of_run m ρ (cellData m) (data_arrays m) (run_main m ρ)

end Cert.KernelIdeal.Cell

end
-- ==== Proof.LstmSpec.lean ====
/-
  One step of an LSTM cell on B rows (B = 131072 for the whole arrays, 4096 for one block of rows), with input width and state width 128, over the extended reals.

  For a row with input `x : Fin 128 → EReal`, previous hidden vector `h` and previous memory `c`, and for the fused weights
  `W, U : [128, 512]` and bias `b : [512]` (four bands of 128 columns: input gate, forget gate, output gate, candidate),
      g(j)  = (Σₖ x(k)·W(k,j) + Σₖ h(k)·U(k,j)) + b(j)                 the gate pre-activations, j < 512
      c'(q) = σ(g(128+q))·c(q) + σ(g(q))·tanh(g(384+q))                 the new memory, q < 128
      h'(q) = σ(g(256+q))·tanh(c'(q))                                   the new hidden vector
  with σ(y) = 1 / (1 + e^(−y)). The result is the stack [h', c'] : [2, B, 128].

  Nothing here needs the inputs to be finite: the two programs compared against this specification compute these very
  expressions, in this order of operations, and no law of arithmetic is used to pass between them.
-/
import Idealize.ShloMosaic.PureOps.Ideal
import Idealize.ShloMosaic.Lib.ValueIdx

noncomputable section

namespace Lstm

open Idealize.ShloMosaic Idealize.ShloMosaic.ValueIdx

abbrev SX (B : Nat) : Shape := ⟨2, ![B, 128]⟩
abbrev SHC (B : Nat) : Shape := ⟨3, ![2, B, 128]⟩
abbrev SW : Shape := ⟨2, ![128, 512]⟩
abbrev SB : Shape := ⟨1, ![512]⟩

/-- The f32 word of `1.0` denotes the number one. -/
theorem one_word : Ideal.ofBits .f32 0x3F800000#32 = 1 := by
  simp [Ideal.ofBits, Ideal.ieee, -EReal.coe_mul]; norm_num

/-- The logistic function as the host spells it, `1 / (1 + e^(−y))` with both ones the f32 word of `1.0`, is the
    logistic function. -/
theorem logistic_spelt (y : EReal) :
    Ideal.div (Ideal.ofBits .f32 0x3F800000#32) (Ideal.ofBits .f32 0x3F800000#32 + Ideal.exp (-y)) = Ideal.logistic y := by
  rw [one_word]; rfl

/-- Gate pre-activation `j` of a row: `(x·W + h·U) + b` at column `j`. -/
def pre {φw : FTy} (x h : Fin 128 → EReal) (W U : FVec Ideal SW φw) (b : FVec Ideal SB .f32) (j : Fin 512) : EReal :=
  ((∑ k : Fin 128, x k * W (ix2 k j)) + (∑ k : Fin 128, h k * U (ix2 k j))) + b (ix1 j)

/-- The new memory at column `q`, from the row's gate pre-activations `g` and the previous memory `c` there; the
    forget gate's, input gate's and candidate's columns are given with what they are (`128 + q`, `q`, `384 + q`). -/
def newC (g : Fin 512 → EReal) (c : EReal) (jf ji jg : Fin 512) : EReal :=
  Ideal.logistic (g jf) * c + Ideal.logistic (g ji) * Ideal.tanh (g jg)

/-- The new hidden value at column `q`: the output gate (column `256 + q`) times `tanh` of the new memory. -/
def newH (g : Fin 512 → EReal) (c : EReal) (jf ji jg jo : Fin 512) : EReal :=
  Ideal.logistic (g jo) * Ideal.tanh (newC g c jf ji jg)

/-- Column `o + q` of the 512. -/
abbrev band (o : Nat) (ho : o + 128 ≤ 512) (q : Fin 128) : Fin 512 := ⟨o + q.val, by have := q.isLt; omega⟩

/-- The cell on whole arrays: slab 0 of the result is the new hidden vector, slab 1 the new memory; slab 0 of the state
    is the previous hidden vector, slab 1 the previous memory. -/
def cell {B : Nat} {φw : FTy} (x : FVec Ideal (SX B) .f32) (hc : FVec Ideal (SHC B) .f32) (W U : FVec Ideal SW φw) (b : FVec Ideal SB .f32) :
    FVec Ideal (SHC B) .f32 := fun i =>
  if (i 0).val = 0 then
    newH (pre (fun k => x (ix2 (i 1) k)) (fun k => hc (ix3 (0 : Fin 2) (i 1) k)) W U b) (hc (ix3 (1 : Fin 2) (i 1) (i 2)))
      (band 128 (by decide) (i 2)) (band 0 (by decide) (i 2)) (band 384 (by decide) (i 2)) (band 256 (by decide) (i 2))
  else
    newC (pre (fun k => x (ix2 (i 1) k)) (fun k => hc (ix3 (0 : Fin 2) (i 1) k)) W U b) (hc (ix3 (1 : Fin 2) (i 1) (i 2)))
      (band 128 (by decide) (i 2)) (band 0 (by decide) (i 2)) (band 384 (by decide) (i 2))

theorem cell_hidden {B : Nat} {φw : FTy} (x : FVec Ideal (SX B) .f32) (hc : FVec Ideal (SHC B) .f32) (W U : FVec Ideal SW φw) (b : FVec Ideal SB .f32)
    (r : Fin B) (q : Fin 128) :
    cell x hc W U b (ix3 (0 : Fin 2) r q)
      = newH (pre (fun k => x (ix2 r k)) (fun k => hc (ix3 (0 : Fin 2) r k)) W U b) (hc (ix3 (1 : Fin 2) r q))
          (band 128 (by decide) q) (band 0 (by decide) q) (band 384 (by decide) q) (band 256 (by decide) q) := rfl

theorem cell_memory {B : Nat} {φw : FTy} (x : FVec Ideal (SX B) .f32) (hc : FVec Ideal (SHC B) .f32) (W U : FVec Ideal SW φw) (b : FVec Ideal SB .f32)
    (r : Fin B) (q : Fin 128) :
    cell x hc W U b (ix3 (1 : Fin 2) r q)
      = newC (pre (fun k => x (ix2 r k)) (fun k => hc (ix3 (0 : Fin 2) r k)) W U b) (hc (ix3 (1 : Fin 2) r q))
          (band 128 (by decide) q) (band 0 (by decide) q) (band 384 (by decide) q) := rfl

/-- The cell works row by row: entry `(s, r, q)` depends only on row `r` of `x` and of the two slabs of the state. So an
    entry of the cell of some arrays is the entry, at the same slab and column, of the cell of any other arrays whose
    row there is the same row (a block of rows cut out of the whole arrays, for one). -/
theorem cell_congr {B B' : Nat} {φw : FTy} (x : FVec Ideal (SX B) .f32) (x' : FVec Ideal (SX B') .f32)
    (hc : FVec Ideal (SHC B) .f32) (hc' : FVec Ideal (SHC B') .f32) (W U : FVec Ideal SW φw) (b : FVec Ideal SB .f32)
    (s : Fin 2) (r : Fin B) (r' : Fin B') (q : Fin 128)
    (hx : ∀ k, x (ix2 r k) = x' (ix2 r' k)) (hh : ∀ (u : Fin 2) k, hc (ix3 u r k) = hc' (ix3 u r' k)) :
    cell x hc W U b (ix3 s r q) = cell x' hc' W U b (ix3 s r' q) := by
  have e1 : (fun k => x (ix2 r k)) = fun k => x' (ix2 r' k) := funext hx
  have e2 : (fun k => hc (ix3 (0 : Fin 2) r k)) = fun k => hc' (ix3 (0 : Fin 2) r' k) := funext (hh 0)
  have e3 : hc (ix3 (1 : Fin 2) r q) = hc' (ix3 (1 : Fin 2) r' q) := hh 1 q
  show (if s.val = 0 then newH (pre (fun k => x (ix2 r k)) (fun k => hc (ix3 (0 : Fin 2) r k)) W U b) (hc (ix3 (1 : Fin 2) r q)) _ _ _ _
      else newC (pre (fun k => x (ix2 r k)) (fun k => hc (ix3 (0 : Fin 2) r k)) W U b) (hc (ix3 (1 : Fin 2) r q)) _ _ _)
    = (if s.val = 0 then newH (pre (fun k => x' (ix2 r' k)) (fun k => hc' (ix3 (0 : Fin 2) r' k)) W U b) (hc' (ix3 (1 : Fin 2) r' q)) _ _ _ _
      else newC (pre (fun k => x' (ix2 r' k)) (fun k => hc' (ix3 (0 : Fin 2) r' k)) W U b) (hc' (ix3 (1 : Fin 2) r' q)) _ _ _)
  rw [e1, e2, e3]
  rfl

end Lstm

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.CellBodyValue.lean ====
/-
  The LSTM cell's body, read entry by entry over the extended reals.

  The body is handed a block of 4096 rows: `x` [4096, 128], the previous hidden vectors and memories as the two slabs of
  [2, 4096, 128] (loaded as two [1, 4096, 128] pieces), the fused weights `W`, `U` [128, 512] and the bias [512]. It forms
  all 512 gate pre-activations of every row at once, `(x·W + h·U) + b` — the matrix unit's products into zero
  accumulators are finite sums over the 128 contracted coordinates, the change of the operands to the 16-bit format is the
  identity on the extended reals, and the bias row is repeated down the rows —, applies the logistic function to columns
  0 … 383 and `tanh` to columns 384 … 511, and cuts the four bands of 128 columns out of the two results. Entry `(p, q)` of
  what it stores is therefore the specification's `newH` / `newC` of row `p`'s pre-activations.
-/
import proofs.«117668_j72954314489889_2_alg».proof.Proof.Gen.KernelIdeal.Skeleton
import proofs.«117668_j72954314489889_2_alg».proof.Proof.LstmSpec
import proofs.«117668_j72954314489889_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.CellValue

open Idealize.ShloMosaic Idealize.ShloMosaic.ValueIdx Cert.KernelIdeal Cert.KernelIdeal.Gen

variable (v0 v2 : Vec Ideal S1x4096x128 .f32) (v4 : Vec Ideal S4096x128 .f32) (v7 v10 : Vec Ideal S128x512 .bf16) (v14 : Vec Ideal S512 .f32)

/-- Row `p`'s gate pre-activations, from the block's loads. -/
abbrev rowPre (p : Fin 4096) : Fin 512 → EReal :=
  Lstm.pre (φw := .bf16) (fun k => v4 (ix2 p k)) (fun k => v0 (ix3 (0 : Fin 1) p k)) v7 v10 v14

/-- Entry `(p, j)` of the [4096, 512] array of pre-activations. -/
theorem pre_apply (p : Fin 4096) (j : Fin 512) : k0_pay1 v0 v4 v7 v10 v14 (ix2 p j) = rowPre v0 v4 v7 v10 v14 p j := by
  unfold k0_pay1
  refine (addf_apply _ _ _).trans ?_
  show _ = ((∑ k : Fin 128, v4 (ix2 p k) * v7 (ix2 k j)) + (∑ k : Fin 128, v0 (ix3 (0 : Fin 1) p k) * v10 (ix2 k j))) + v14 (ix1 j)
  refine congrArg₂ (· + ·) ((addf_apply _ _ _).trans (congrArg₂ (· + ·) ?_ ?_)) ?_
  · refine (PlainDot.matmul_apply_ix2 none _ _ p j).trans (Finset.sum_congr rfl fun k _ => ?_)
    exact congrArg₂ (· * ·) rfl (congrFun (shapeCast_self v7 _) _)
  · refine (PlainDot.matmul_apply_ix2 none _ _ p j).trans (Finset.sum_congr rfl fun k _ => ?_)
    exact congrArg₂ (· * ·) (shapeCast_1ab_ab_apply v0 _ p k) (congrFun (shapeCast_self v10 _) _)
  · refine (broadcastTo_1b_ab_apply _ _ p j).trans ((shapeCast_a_1a_apply _ _ (0 : Fin 1) j).trans ?_)
    exact congrFun (shapeCast_self v14 _) _

/-- Entry `(p, j)`, `j < 384`, of the logistic function applied to the first three bands. -/
theorem sig_apply (p : Fin 4096) (j : Fin 384) (k : Fin 512) (hk : k.val = 0 + j.val) :
    k0_pay2 v0 v4 v7 v10 v14 (ix2 p j) = Ideal.logistic (rowPre v0 v4 v7 v10 v14 p k) := by
  unfold k0_pay2
  exact congrArg Ideal.logistic ((slice2_axis1_apply 0 _ _ p j k hk).trans (pre_apply v0 v4 v7 v10 v14 p k))

/-- Entry `(p, q)` of the new memory. -/
theorem memory_apply (p : Fin 4096) (q : Fin 128) :
    k0_pay3 v0 v2 v4 v7 v10 v14 (ix2 p q)
      = Lstm.newC (rowPre v0 v4 v7 v10 v14 p) (v2 (ix3 (0 : Fin 1) p q))
          (Lstm.band 128 (by decide) q) (Lstm.band 0 (by decide) q) (Lstm.band 384 (by decide) q) := by
  have hq := q.isLt
  unfold k0_pay3 Lstm.newC
  refine (addf_apply _ _ _).trans (congrArg₂ (· + ·) ((mulf_apply _ _ _).trans (congrArg₂ (· * ·) ?_ ?_))
    ((mulf_apply _ _ _).trans (congrArg₂ (· * ·) ?_ ?_)))
  · exact (slice2_axis1_apply 128 _ _ p q ⟨128 + q.val, by omega⟩ rfl).trans
      (sig_apply v0 v4 v7 v10 v14 p ⟨128 + q.val, by omega⟩ (Lstm.band 128 (by decide) q) (by show 128 + q.val = 0 + (128 + q.val); omega))
  · exact shapeCast_1ab_ab_apply v2 _ p q
  · exact (slice2_axis1_apply 0 _ _ p q ⟨0 + q.val, by omega⟩ rfl).trans
      (sig_apply v0 v4 v7 v10 v14 p ⟨0 + q.val, by omega⟩ (Lstm.band 0 (by decide) q) (by show 0 + q.val = 0 + (0 + q.val); omega))
  · exact congrArg Ideal.tanh ((slice2_axis1_apply 384 _ _ p q (Lstm.band 384 (by decide) q) rfl).trans
      (pre_apply v0 v4 v7 v10 v14 p _))

/-- Entry `(0, p, q)` of the piece stored into slab 1: the new memory. -/
theorem stored_memory_apply (u : Fin 1) (p : Fin 4096) (q : Fin 128) :
    k0_pay5 v0 v2 v4 v7 v10 v14 (ix3 u p q)
      = Lstm.newC (rowPre v0 v4 v7 v10 v14 p) (v2 (ix3 (0 : Fin 1) p q))
          (Lstm.band 128 (by decide) q) (Lstm.band 0 (by decide) q) (Lstm.band 384 (by decide) q) := by
  unfold k0_pay5
  exact (shapeCast_ab_1ab_apply _ _ u p q).trans (memory_apply v0 v2 v4 v7 v10 v14 p q)

/-- Entry `(0, p, q)` of the piece stored into slab 0: the new hidden vector. -/
theorem stored_hidden_apply (u : Fin 1) (p : Fin 4096) (q : Fin 128) :
    k0_pay4 v0 v2 v4 v7 v10 v14 (ix3 u p q)
      = Lstm.newH (rowPre v0 v4 v7 v10 v14 p) (v2 (ix3 (0 : Fin 1) p q))
          (Lstm.band 128 (by decide) q) (Lstm.band 0 (by decide) q) (Lstm.band 384 (by decide) q) (Lstm.band 256 (by decide) q) := by
  have hq := q.isLt
  unfold k0_pay4 Lstm.newH
  refine (shapeCast_ab_1ab_apply _ _ u p q).trans ((mulf_apply _ _ _).trans (congrArg₂ (· * ·) ?_ ?_))
  · exact (slice2_axis1_apply 256 _ _ p q ⟨256 + q.val, by omega⟩ rfl).trans
      (sig_apply v0 v4 v7 v10 v14 p ⟨256 + q.val, by omega⟩ (Lstm.band 256 (by decide) q) (by show 256 + q.val = 0 + (256 + q.val); omega))
  · exact congrArg Ideal.tanh (memory_apply v0 v2 v4 v7 v10 v14 p q)

end Cert.KernelIdeal.CellValue

end
-- ==== Proof.CellBlock.lean ====
/-
  What the body leaves in the result's staging buffer is the LSTM cell of the block it was handed.

  The buffer [2, 4096, 128] is written by two stores, slab 1 (the new memories) and slab 0 (the new hidden vectors), which
  tile it. Each stored piece, entry by entry, is the cell of the block's rows at the buffer index the entry lands on; so
  the buffer's contents are that one function of its index, whichever store covers the index.
-/
import proofs.«117668_j72954314489889_2_alg».proof.Proof.KernelIdealCell
import proofs.«117668_j72954314489889_2_alg».proof.Proof.CellBodyValue

set_option maxRecDepth 16384

noncomputable section

namespace Cert.KernelIdeal.CellValue

open Idealize.ShloMosaic Idealize.ShloMosaic.ValueIdx Cert.KernelIdeal Cert.KernelIdeal.Gen Cert.KernelIdeal.Cell

/-- Entry `(0, p, q)` of slab 0 is entry `(0, p, q)` of the buffer; -/
theorem slabH_at (u : Fin 1) (p : Fin 4096) (q : Fin 128) : slabH.emb (ix3 u p q) = ix3 (0 : Fin 2) p q := by
  funext a
  apply Fin.ext
  match a with
  | ⟨0, _⟩ => show 0 + 1 * u.val = 0; omega
  | ⟨1, _⟩ => show 0 + 1 * p.val = p.val; omega
  | ⟨2, _⟩ => show 0 + 1 * q.val = q.val; omega

/-- of slab 1, entry `(1, p, q)`. -/
theorem slabC_at (u : Fin 1) (p : Fin 4096) (q : Fin 128) : slabC.emb (ix3 u p q) = ix3 (1 : Fin 2) p q := by
  funext a
  apply Fin.ext
  match a with
  | ⟨0, _⟩ => show 1 + 1 * u.val = 1; omega
  | ⟨1, _⟩ => show 0 + 1 * p.val = p.val; omega
  | ⟨2, _⟩ => show 0 + 1 * q.val = q.val; omega

theorem zeros1 : (![0] : Fin 1 → Nat) = fun _ => 0 := funext fun a => by fin_cases a <;> rfl
theorem zeros2 : (![0, 0] : Fin 2 → Nat) = fun _ => 0 := funext fun a => by fin_cases a <;> rfl

variable (x0 : Vec Ideal S4096x128 .f32) (x1 : Vec Ideal S2x4096x128 .f32) (x2 x3 : Vec Ideal S128x512 .bf16) (x4 : Vec Ideal S512 .f32)

/-- Row `p`'s pre-activations from the loads are its pre-activations from the buffers: the loads of `x`, `W`, `U`, `b` read
    the whole buffers, and the load of slab 0 of the state reads the previous hidden vectors. -/
theorem rowPre_loads (p : Fin 4096) :
    rowPre (View.ld x1 slabH) (View.ld x0 allX) (View.ld x2 allW) (View.ld x3 allW) (View.ld x4 allB) p
      = Lstm.pre (φw := .bf16) (fun k => x0 (ix2 p k)) (fun k => x1 (ix3 (0 : Fin 2) p k)) x2 x3 x4 := by
  unfold rowPre
  rw [View.ld_unit_zero (S := S4096x128) zeros2, View.ld_unit_zero (S := S128x512) zeros2, View.ld_unit_zero (S := S128x512) zeros2,
    View.ld_unit_zero (S := S512) zeros1]
  refine congrArg (fun h => Lstm.pre (φw := .bf16) (fun k => x0 (ix2 p k)) h x2 x3 x4) (funext fun k => ?_)
  exact congrArg x1 (slabH_at 0 p k)

/-- The result's staging buffer after the body holds the cell of the block: of its 4096 rows of `x` and of the state. -/
theorem cellOut_eq : cellOut x0 x1 x2 x3 x4 = Lstm.cell (B := 4096) (φw := .bf16) x0 x1 x2 x3 x4 := by
  funext y
  unfold cellOut
  refine View.canon_apply_of_pieces (Val := Elt Ideal) (S := S2x4096x128) (e := .f32) (Lstm.cell (B := 4096) (φw := .bf16) x0 x1 x2 x3 x4) _ ?_ y (slabs_cover _ _ y)
  intro pc hpc x
  rcases List.mem_cons.mp hpc with rfl | hpc
  · obtain ⟨u, p, q, rfl⟩ : ∃ (u : Fin 1) (p : Fin 4096) (q : Fin 128), x = ix3 u p q := ⟨x 0, x 1, x 2, eq_ix3 x⟩
    refine (stored_memory_apply _ _ _ _ _ _ u p q).trans ?_
    rw [slabC_at, Lstm.cell_memory, rowPre_loads]
    exact congrArg (fun c => Lstm.newC _ c _ _ _) (congrArg x1 (slabC_at 0 p q))
  · rcases List.mem_singleton.mp hpc with rfl
    obtain ⟨u, p, q, rfl⟩ : ∃ (u : Fin 1) (p : Fin 4096) (q : Fin 128), x = ix3 u p q := ⟨x 0, x 1, x 2, eq_ix3 x⟩
    refine (stored_hidden_apply _ _ _ _ _ _ u p q).trans ?_
    rw [slabH_at, Lstm.cell_hidden, rowPre_loads]
    exact congrArg (fun c => Lstm.newH _ c _ _ _ _) (congrArg x1 (slabC_at 0 p q))

end Cert.KernelIdeal.CellValue

end
-- ==== Proof.CellArray.lean ====
/-
  From blocks to the whole result array, and the kernel program's run read as a value.

  Point `t` of the 32 hands the body rows 4096·t … 4096·t + 4095 of `x` and of both slabs of the state, and the whole of
  `W`, `U`, `b`; what it writes back is the cell of that block of rows, which is the same rows of the cell of the whole
  arrays, because the cell works row by row. The 32 blocks of the result tile it (row `r` lies in block `r / 4096`), so
  after the run the result array IS the cell of the arrays the region found: `x` and the state as launched, `W` and `U` the
  four weight matrices side by side (their change to the 16-bit format is the identity on the extended reals), `b` the
  four biases end to end.
-/
import proofs.«117668_j72954314489889_2_alg».proof.Proof.CellBlock
import Idealize.ShloMosaic.Lib.StableHlo.Run

set_option maxRecDepth 16384

noncomputable section

namespace Cert.KernelIdeal.CellValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Cell

variable (m : (ℓ : Loc nD τ sig) → Buf (Elt Ideal) ℓ) (ρ : Dev nD → PrngReg)

/-! ## The index maps over the grid -/

/-- The printed index maps, decided over the 32 points: the row-blocked windows (x, the state, the result) are at block
    `t` on the row axis and block 0 on the others; W, U, b are at block 0 throughout. -/
theorem grid_facts : ∀ t : Fin cfg0.N,
    win0_0.index t (0 : Fin 2) = t.val ∧ win0_0.index t (1 : Fin 2) = 0
    ∧ win0_1.index t (0 : Fin 3) = 0 ∧ win0_1.index t (1 : Fin 3) = t.val ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 3) = 0 ∧ win0_5.index t (1 : Fin 3) = t.val ∧ win0_5.index t (2 : Fin 3) = 0 :=
  (by decide +kernel : ∀ t : Fin grid0.N, _)

theorem point_lt (t : Fin cfg0.N) : t.val < 32 := lt_of_lt_of_eq t.isLt N_0

/-! ## The blocks of W, U, b are the whole arrays -/

theorem blockW (c : Dev nD) (t : Fin cfg0.N) : blockAt m c 2 t = entry m c main_v1 := by
  obtain ⟨-, -, -, -, -, e20, e21, -⟩ := grid_facts t
  funext y
  show entry m c main_v1 (((cfg0.win 2).blk t).view.emb y) = entry m c main_v1 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 512 + 1 * (y 1).val = (y 1).val; omega

theorem blockU (c : Dev nD) (t : Fin cfg0.N) : blockAt m c 3 t = entry m c main_v3 := by
  obtain ⟨-, -, -, -, -, -, -, e30, e31, -⟩ := grid_facts t
  funext y
  show entry m c main_v3 (((cfg0.win 3).blk t).view.emb y) = entry m c main_v3 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 512 + 1 * (y 1).val = (y 1).val; omega

theorem blockB (c : Dev nD) (t : Fin cfg0.N) : blockAt m c 4 t = entry m c main_v4 := by
  obtain ⟨-, -, -, -, -, -, -, -, -, e40, -⟩ := grid_facts t
  funext y
  show entry m c main_v4 (((cfg0.win 4).blk t).view.emb y) = entry m c main_v4 y
  refine congrArg _ (funext fun a => Fin.ext ?_)
  match a with
  | ⟨0, _⟩ => show win0_4.index t (0 : Fin 1) * 512 + 1 * (y 0).val = (y 0).val; omega

/-! ## What point `t` writes back -/

/-- The cell of the arrays the region finds. -/
abbrev wholeCell (c : Dev nD) : S2x131072x128.Idx → Elt Ideal .f32 :=
  Lstm.cell (B := 131072) (φw := .bf16) (entry m c main_arg0) (entry m c main_arg1) (entry m c main_v1) (entry m c main_v3) (entry m c main_v4)

/-- What point `t` writes back is block `t` of the cell of the whole arrays. -/
theorem flushed_eq (c : Dev nD) (t : Fin cfg0.N) :
    (cellData m 0 c).flushed 5 t = ((cfg0.win 5).blk t).view.read (Elt Ideal) (wholeCell m c) := by
  show (cfg0.win 5).cut (grid0.coords t) ((cellData m 0 c).after 5 t) = _
  rw [after5, cellOut_eq, blockW, blockU, blockB]
  obtain ⟨e00, e01, e10, e11, e12, -, -, -, -, -, e50, e51, e52⟩ := grid_facts t
  have ht := point_lt t
  funext j
  obtain ⟨s, p, q, rfl⟩ : ∃ (s : Fin 2) (p : Fin 4096) (q : Fin 128), j = ix3 s p q := ⟨j 0, j 1, j 2, eq_ix3 j⟩
  have hp := p.isLt
  have e5 : ((cfg0.win 5).blk t).view.emb (ix3 s p q) = ix3 s (⟨t.val * 4096 + p.val, by omega⟩ : Fin 131072) q := by
    funext a; apply Fin.ext
    match a with
    | ⟨0, _⟩ => show win0_5.index t (0 : Fin 3) * 2 + 1 * s.val = s.val; omega
    | ⟨1, _⟩ => show win0_5.index t (1 : Fin 3) * 4096 + 1 * p.val = t.val * 4096 + p.val; omega
    | ⟨2, _⟩ => show win0_5.index t (2 : Fin 3) * 128 + 1 * q.val = q.val; omega
  show Lstm.cell (B := 4096) (φw := .bf16) (blockAt m c 0 t) (blockAt m c 1 t) (entry m c main_v1) (entry m c main_v3) (entry m c main_v4) (ix3 s p q)
    = wholeCell m c (((cfg0.win 5).blk t).view.emb (ix3 s p q))
  rw [e5]
  refine Lstm.cell_congr _ _ _ _ _ _ _ s p _ q (fun k => ?_) (fun u k => ?_)
  · show entry m c main_arg0 (((cfg0.win 0).blk t).view.emb (ix2 p k)) = entry m c main_arg0 (ix2 (⟨t.val * 4096 + p.val, by omega⟩ : Fin 131072) k)
    refine congrArg _ (funext fun a => Fin.ext ?_)
    match a with
    | ⟨0, _⟩ => show win0_0.index t (0 : Fin 2) * 4096 + 1 * p.val = t.val * 4096 + p.val; omega
    | ⟨1, _⟩ => show win0_0.index t (1 : Fin 2) * 128 + 1 * k.val = k.val; omega
  · show entry m c main_arg1 (((cfg0.win 1).blk t).view.emb (ix3 u p k)) = entry m c main_arg1 (ix3 u (⟨t.val * 4096 + p.val, by omega⟩ : Fin 131072) k)
    refine congrArg _ (funext fun a => Fin.ext ?_)
    match a with
    | ⟨0, _⟩ => show win0_1.index t (0 : Fin 3) * 2 + 1 * u.val = u.val; omega
    | ⟨1, _⟩ => show win0_1.index t (1 : Fin 3) * 4096 + 1 * p.val = t.val * 4096 + p.val; omega
    | ⟨2, _⟩ => show win0_1.index t (2 : Fin 3) * 128 + 1 * k.val = k.val; omega

/-! ## The blocks tile the result -/

/-- An index of the result is in point `t`'s block iff each coordinate is in the block's range on its axis. -/
theorem mem_block (t : Fin cfg0.N) (i : S2x131072x128.Idx) :
    i ∈ ((cfg0.win 5).blk t).view.set ↔ ∀ a : Fin 3, win0_5.index t a * S2x4096x128.size a ≤ (i a).val
      ∧ (i a).val < win0_5.index t a * S2x4096x128.size a + S2x4096x128.size a := by
  show i ∈ ((View.whole main_v5).slice (win0_5.rect t)).set ↔ _
  rw [View.set_slice_whole, Rect.mem_set_unit]
  exact Iff.rfl

/-- Row `r` of the result lies in the block of point `r / 4096`, which writes it back. -/
theorem covered (i : S2x131072x128.Idx) :
    ∃ t : Fin cfg0.N, (cfg0.win 5).flush t = true ∧ i ∈ ((cfg0.win 5).blk t).view.set := by
  have hi0 : (i 0).val < 2 := (i 0).isLt
  have hi1 : (i 1).val < 131072 := (i 1).isLt
  have hi2 : (i 2).val < 128 := (i 2).isLt
  have hN : (i 1).val / 4096 < cfg0.N := by rw [show cfg0.N = 32 from N_0]; omega
  refine ⟨⟨(i 1).val / 4096, hN⟩, flush0_5 _, ?_⟩
  rw [mem_block]
  obtain ⟨-, -, -, -, -, -, -, -, -, -, e50, e51, e52⟩ := grid_facts ⟨(i 1).val / 4096, hN⟩
  have e51' : win0_5.index ⟨(i 1).val / 4096, hN⟩ (1 : Fin 3) = (i 1).val / 4096 := e51
  intro a
  match a with
  | ⟨0, _⟩ => show win0_5.index ⟨(i 1).val / 4096, hN⟩ (0 : Fin 3) * 2 ≤ (i 0).val ∧ (i 0).val < win0_5.index ⟨(i 1).val / 4096, hN⟩ (0 : Fin 3) * 2 + 2; omega
  | ⟨1, _⟩ => show win0_5.index ⟨(i 1).val / 4096, hN⟩ (1 : Fin 3) * 4096 ≤ (i 1).val ∧ (i 1).val < win0_5.index ⟨(i 1).val / 4096, hN⟩ (1 : Fin 3) * 4096 + 4096; omega
  | ⟨2, _⟩ => show win0_5.index ⟨(i 1).val / 4096, hN⟩ (2 : Fin 3) * 128 ≤ (i 2).val ∧ (i 2).val < win0_5.index ⟨(i 1).val / 4096, hN⟩ (2 : Fin 3) * 128 + 128; omega

/-- After the run the result array is the cell of the arrays the region found. -/
theorem result_array (c : Dev nD) : (cellData m 0 c).arrAt 5 cfg0.N = wholeCell m c :=
  (cellData m 0 c).arrAt_eq_of_cover 5 (wholeCell m c) (fun t _ => flushed_eq m c t) covered

end Cert.KernelIdeal.CellValue

end
-- ==== Proof.CellRun.lean ====
/-
  The idealized kernel program's run, read as a value: every weakly fair execution of @main terminates without a fault,
  leaves the fourteen argument arrays as launched, and leaves the result array equal to the LSTM cell of `x`, the state,
  the four input weight matrices side by side, the four recurrent ones side by side, and the four biases end to end.
-/
import proofs.«117668_j72954314489889_2_alg».proof.Proof.CellArray
import Idealize.ShloMosaic.Lib.StableHlo.Run

noncomputable section

namespace Cert.KernelIdeal.CellValue

open Idealize.ShloMosaic Idealize.ShloMosaic.TcCoe Idealize.SL.Sem
open Cert.KernelIdeal Cert.KernelIdeal.Gen Cert.KernelIdeal.Cell

variable (m : (ℓ : Loc nD τ sig) → Buf (Elt Ideal) ℓ) (ρ : Dev nD → PrngReg)

/-! ## What the region finds, from the launch contents -/

/-- `x` and the state are as launched: no host line writes them. -/
theorem entry_x (c : Dev nD) : entry m c main_arg0 = m ((c : Thread nD τ).loc main_arg0) :=
  entry_of_not_written m c main_arg0 (by decide) (by decide) (by decide) (by decide) (by decide)
theorem entry_state (c : Dev nD) : entry m c main_arg1 = m ((c : Thread nD τ).loc main_arg1) :=
  entry_of_not_written m c main_arg1 (by decide) (by decide) (by decide) (by decide) (by decide)

/-- `W` is the four input weight matrices side by side (then changed to the 16-bit format, the identity here); -/
theorem entry_W (c : Dev nD) : (entry m c main_v1 : S128x512.Idx → EReal)
    = concatenate S128x512 1 [⟨S128x128, m ((c : Thread nD τ).loc main_arg2)⟩, ⟨S128x128, m ((c : Thread nD τ).loc main_arg5)⟩,
        ⟨S128x128, m ((c : Thread nD τ).loc main_arg8)⟩, ⟨S128x128, m ((c : Thread nD τ).loc main_arg11)⟩]
        concatenates_S128x128_S128x128_S128x128_S128x128_S128x512_d1 := by
  dsimp only [entry]
  simp only [hostOps0, List.flatten_cons, List.flatten_nil, List.append_nil, List.cons_append, List.nil_append]
  after_results
  rfl

/-- `U` the four recurrent ones; -/
theorem entry_U (c : Dev nD) : (entry m c main_v3 : S128x512.Idx → EReal)
    = concatenate S128x512 1 [⟨S128x128, m ((c : Thread nD τ).loc main_arg3)⟩, ⟨S128x128, m ((c : Thread nD τ).loc main_arg6)⟩,
        ⟨S128x128, m ((c : Thread nD τ).loc main_arg9)⟩, ⟨S128x128, m ((c : Thread nD τ).loc main_arg12)⟩]
        concatenates_S128x128_S128x128_S128x128_S128x128_S128x512_d1 := by
  dsimp only [entry]
  simp only [hostOps0, List.flatten_cons, List.flatten_nil, List.append_nil, List.cons_append, List.nil_append]
  after_results
  rfl

/-- `b` the four biases end to end. -/
theorem entry_b (c : Dev nD) : (entry m c main_v4 : S512.Idx → EReal)
    = concatenate S512 0 [⟨S128, m ((c : Thread nD τ).loc main_arg4)⟩, ⟨S128, m ((c : Thread nD τ).loc main_arg7)⟩,
        ⟨S128, m ((c : Thread nD τ).loc main_arg10)⟩, ⟨S128, m ((c : Thread nD τ).loc main_arg13)⟩]
        concatenates_S128_S128_S128_S128_S512_d0 := by
  dsimp only [entry]
  simp only [hostOps0, List.flatten_cons, List.flatten_nil, List.append_nil, List.cons_append, List.nil_append]
  after_results
  rfl

/-! ## The result -/

/-- The cell of the launch arguments on core `c`. -/
def argCell (c : Dev nD) : S2x131072x128.Idx → EReal :=
  Lstm.cell (B := 131072) (φw := .f32) (m ((c : Thread nD τ).loc main_arg0)) (m ((c : Thread nD τ).loc main_arg1))
    (concatenate S128x512 1 [⟨S128x128, m ((c : Thread nD τ).loc main_arg2)⟩, ⟨S128x128, m ((c : Thread nD τ).loc main_arg5)⟩,
        ⟨S128x128, m ((c : Thread nD τ).loc main_arg8)⟩, ⟨S128x128, m ((c : Thread nD τ).loc main_arg11)⟩]
        concatenates_S128x128_S128x128_S128x128_S128x128_S128x512_d1)
    (concatenate S128x512 1 [⟨S128x128, m ((c : Thread nD τ).loc main_arg3)⟩, ⟨S128x128, m ((c : Thread nD τ).loc main_arg6)⟩,
        ⟨S128x128, m ((c : Thread nD τ).loc main_arg9)⟩, ⟨S128x128, m ((c : Thread nD τ).loc main_arg12)⟩]
        concatenates_S128x128_S128x128_S128x128_S128x128_S128x512_d1)
    (concatenate S512 0 [⟨S128, m ((c : Thread nD τ).loc main_arg4)⟩, ⟨S128, m ((c : Thread nD τ).loc main_arg7)⟩,
        ⟨S128, m ((c : Thread nD τ).loc main_arg10)⟩, ⟨S128, m ((c : Thread nD τ).loc main_arg13)⟩]
        concatenates_S128_S128_S128_S128_S512_d0)

/-- The cell of what the region finds is the cell of the launch arguments. -/
theorem wholeCell_eq (c : Dev nD) : wholeCell m c = argCell m c := by
  unfold wholeCell argCell
  rw [entry_x, entry_state, entry_W, entry_U, entry_b]
  rfl

/-- The run: the result array is the cell of the arguments, and the arguments are unchanged. -/
theorem run : θ_run defs (onTc (τ := τ) (main (F := Ideal))) ⟨m, fun _ => 0, ρ⟩ (fun r => ∀ c : Dev nD,
      r.2.mem ((c.tc : Thread nD τ).loc main_v5) = argCell m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨((h c).1 5).trans ((result_array m c).trans (wholeCell_eq m c)),
      kept_of_post m (cellData m) (data_arrays m) r h c⟩) (run_main m ρ)

end Cert.KernelIdeal.CellValue

end
-- ==== Proof.RefCell.lean ====
/-
  The reference program's result is the LSTM cell of its arguments.

  The host program cuts the state into its two slabs (a slice and a reshape each), joins the four input weight matrices
  into `W`, the four recurrent ones into `U` and the four biases into `b`, forms `(x·W + h·U) + b` with two `dot_general`s
  (finite sums over the 128 contracted coordinates) and the bias lifted twice, cuts the four bands of 128 columns, applies
  `1 / (1 + e^(−y))` to three of them — the logistic function, spelt out — and `tanh` to the fourth, combines them with the
  previous memory, and stacks the new hidden vectors over the new memories. Entry by entry that is the specification.
-/
import proofs.«117668_j72954314489889_2_alg».proof.Proof.Gen.ReferenceIdeal.Read
import proofs.«117668_j72954314489889_2_alg».proof.Proof.LstmSpec
import Idealize.ShloMosaic.Lib.ValueIdx
import Idealize.ShloMosaic.Lib.Pipeline.Value

noncomputable section

namespace Cert.ReferenceIdeal.RefValue

open Idealize.ShloMosaic Idealize.ShloMosaic.ValueIdx Cert.ReferenceIdeal Cert.ReferenceIdeal.Gen Cert.ReferenceIdeal.Read

variable (x0 : (⟨S131072x128, .f32⟩ : BufTy).Contents (Elt Ideal)) (x1 : (⟨S2x131072x128, .f32⟩ : BufTy).Contents (Elt Ideal))
  (x2 x3 : (⟨S128x128, .f32⟩ : BufTy).Contents (Elt Ideal)) (x4 : (⟨S128, .f32⟩ : BufTy).Contents (Elt Ideal))
  (x5 x6 : (⟨S128x128, .f32⟩ : BufTy).Contents (Elt Ideal)) (x7 : (⟨S128, .f32⟩ : BufTy).Contents (Elt Ideal))
  (x8 x9 : (⟨S128x128, .f32⟩ : BufTy).Contents (Elt Ideal)) (x10 : (⟨S128, .f32⟩ : BufTy).Contents (Elt Ideal))
  (x11 x12 : (⟨S128x128, .f32⟩ : BufTy).Contents (Elt Ideal)) (x13 : (⟨S128, .f32⟩ : BufTy).Contents (Elt Ideal))

/-! ## The indices the layout operations read at -/

theorem lhs_x (r : Fin 131072) (j : Fin 512) (k : Fin 128) : lidx_main_v7 (ix2 r j) k = ix2 r k :=
  funext fun a => match a with | ⟨0, _⟩ => rfl | ⟨1, _⟩ => rfl
theorem rhs_W (r : Fin 131072) (j : Fin 512) (k : Fin 128) : ridx_main_v7 (ix2 r j) k = ix2 k j :=
  funext fun a => match a with | ⟨0, _⟩ => rfl | ⟨1, _⟩ => rfl
theorem lhs_h (r : Fin 131072) (j : Fin 512) (k : Fin 128) : lidx_main_v8 (ix2 r j) k = ix2 r k :=
  funext fun a => match a with | ⟨0, _⟩ => rfl | ⟨1, _⟩ => rfl
theorem rhs_U (r : Fin 131072) (j : Fin 512) (k : Fin 128) : ridx_main_v8 (ix2 r j) k = ix2 k j :=
  funext fun a => match a with | ⟨0, _⟩ => rfl | ⟨1, _⟩ => rfl

/-- Entry `(r, k)` of slab 0 reshaped to a matrix is entry `(0, r, k)` of the state; -/
theorem slab0_at (r : Fin 131072) (k : Fin 128) : idx_main_v0 (idx_main_v1 (ix2 r k)) = ix3 (0 : Fin 2) r k := by
  have hr := r.isLt; have hk := k.isLt
  funext a; apply Fin.ext
  match a with
  | ⟨0, _⟩ => rfl
  | ⟨1, _⟩ => show (r.val * 128 + k.val) / 128 % 131072 = r.val; omega
  | ⟨2, _⟩ => show (r.val * 128 + k.val) % 128 = k.val; omega

/-- of slab 1, entry `(1, r, k)`. -/
theorem slab1_at (r : Fin 131072) (k : Fin 128) : idx_main_v2 (idx_main_v3 (ix2 r k)) = ix3 (1 : Fin 2) r k := by
  have hr := r.isLt; have hk := k.isLt
  funext a; apply Fin.ext
  match a with
  | ⟨0, _⟩ => rfl
  | ⟨1, _⟩ => show (r.val * 128 + k.val) / 128 % 131072 = r.val; omega
  | ⟨2, _⟩ => show (r.val * 128 + k.val) % 128 = k.val; omega

theorem band_i (r : Fin 131072) (q : Fin 128) : idx_main_v13 (ix2 r q) = ix2 r (Lstm.band 0 (by decide) q) := by
  funext a; apply Fin.ext
  match a with
  | ⟨0, _⟩ => rfl
  | ⟨1, _⟩ => show q.val = 0 + q.val; omega
theorem band_f (r : Fin 131072) (q : Fin 128) : idx_main_v14 (ix2 r q) = ix2 r (Lstm.band 128 (by decide) q) :=
  funext fun a => match a with | ⟨0, _⟩ => rfl | ⟨1, _⟩ => rfl
theorem band_o (r : Fin 131072) (q : Fin 128) : idx_main_v15 (ix2 r q) = ix2 r (Lstm.band 256 (by decide) q) :=
  funext fun a => match a with | ⟨0, _⟩ => rfl | ⟨1, _⟩ => rfl
theorem band_g (r : Fin 131072) (q : Fin 128) : idx_main_v16 (ix2 r q) = ix2 r (Lstm.band 384 (by decide) q) :=
  funext fun a => match a with | ⟨0, _⟩ => rfl | ⟨1, _⟩ => rfl

/-! ## The stages -/

/-- Row `r`'s gate pre-activations, from the arguments. -/
abbrev refPre (r : Fin 131072) : Fin 512 → EReal :=
  Lstm.pre (φw := .f32) (fun k => x0 (ix2 r k)) (fun k => x1 (ix3 (0 : Fin 2) r k))
    (val_main_v4 (F := Ideal) x2 x5 x8 x11) (val_main_v5 (F := Ideal) x3 x6 x9 x12) (val_main_v6 (F := Ideal) x4 x7 x10 x13)

/-- Entry `(r, j)` of `(x·W + h·U) + b`. -/
theorem pre_at (r : Fin 131072) (j : Fin 512) :
    val_main_v12 (F := Ideal) x0 x1 x2 x3 x4 x5 x6 x7 x8 x9 x10 x11 x12 x13 (ix2 r j) = refPre x0 x1 x2 x3 x4 x5 x6 x7 x8 x9 x10 x11 x12 x13 r j := by
  rw [val_main_v12_apply, val_main_v9_apply, val_main_v7_apply, val_main_v8_apply, val_main_v11_apply, val_main_v10_apply]
  show (_ + _) + _ = ((∑ k : Fin 128, x0 (ix2 r k) * val_main_v4 (F := Ideal) x2 x5 x8 x11 (ix2 k j))
    + (∑ k : Fin 128, x1 (ix3 (0 : Fin 2) r k) * val_main_v5 (F := Ideal) x3 x6 x9 x12 (ix2 k j))) + val_main_v6 (F := Ideal) x4 x7 x10 x13 (ix1 j)
  refine congrArg₂ (· + ·) (congrArg₂ (· + ·) (Finset.sum_congr rfl fun k _ => ?_) (Finset.sum_congr rfl fun k _ => ?_)) ?_
  · rw [lhs_x, rhs_W]
  · rw [lhs_h, rhs_U, val_main_v1_apply, val_main_v0_apply, slab0_at]
  · exact congrArg _ (funext fun a => match a with | ⟨0, _⟩ => rfl)

/-- The input gate at `(r, q)`: the logistic function of pre-activation `q`. -/
theorem gate_i_at (r : Fin 131072) (q : Fin 128) :
    val_main_v22 (F := Ideal) x0 x1 x2 x3 x4 x5 x6 x7 x8 x9 x10 x11 x12 x13 (ix2 r q) = Ideal.logistic (refPre x0 x1 x2 x3 x4 x5 x6 x7 x8 x9 x10 x11 x12 x13 r (Lstm.band 0 (by decide) q)) := by
  rw [val_main_v22_apply, val_main_v21_apply, val_main_cst_0_apply, val_main_v20_apply, val_main_v19_apply, val_main_cst_apply,
    val_main_v18_apply, val_main_v17_apply, val_main_v13_apply, band_i, pre_at]
  exact Lstm.logistic_spelt _

/-- The forget gate: of pre-activation `128 + q`. -/
theorem gate_f_at (r : Fin 131072) (q : Fin 128) :
    val_main_v28 (F := Ideal) x0 x1 x2 x3 x4 x5 x6 x7 x8 x9 x10 x11 x12 x13 (ix2 r q) = Ideal.logistic (refPre x0 x1 x2 x3 x4 x5 x6 x7 x8 x9 x10 x11 x12 x13 r (Lstm.band 128 (by decide) q)) := by
  rw [val_main_v28_apply, val_main_v27_apply, val_main_cst_2_apply, val_main_v26_apply, val_main_v25_apply, val_main_cst_1_apply,
    val_main_v24_apply, val_main_v23_apply, val_main_v14_apply, band_f, pre_at]
  exact Lstm.logistic_spelt _

/-- The output gate: of pre-activation `256 + q`. -/
theorem gate_o_at (r : Fin 131072) (q : Fin 128) :
    val_main_v34 (F := Ideal) x0 x1 x2 x3 x4 x5 x6 x7 x8 x9 x10 x11 x12 x13 (ix2 r q) = Ideal.logistic (refPre x0 x1 x2 x3 x4 x5 x6 x7 x8 x9 x10 x11 x12 x13 r (Lstm.band 256 (by decide) q)) := by
  rw [val_main_v34_apply, val_main_v33_apply, val_main_cst_4_apply, val_main_v32_apply, val_main_v31_apply, val_main_cst_3_apply,
    val_main_v30_apply, val_main_v29_apply, val_main_v15_apply, band_o, pre_at]
  exact Lstm.logistic_spelt _

/-- The new memory at `(r, q)`. -/
theorem memory_at (r : Fin 131072) (q : Fin 128) :
    val_main_v38 (F := Ideal) x0 x1 x2 x3 x4 x5 x6 x7 x8 x9 x10 x11 x12 x13 (ix2 r q)
      = Lstm.newC (refPre x0 x1 x2 x3 x4 x5 x6 x7 x8 x9 x10 x11 x12 x13 r) (x1 (ix3 (1 : Fin 2) r q))
          (Lstm.band 128 (by decide) q) (Lstm.band 0 (by decide) q) (Lstm.band 384 (by decide) q) := by
  rw [val_main_v38_apply, val_main_v36_apply, val_main_v37_apply, val_main_v35_apply, val_main_v16_apply, gate_f_at, gate_i_at,
    val_main_v3_apply, val_main_v2_apply, slab1_at, band_g, pre_at]
  rfl

/-- The new hidden value at `(r, q)`. -/
theorem hidden_at (r : Fin 131072) (q : Fin 128) :
    val_main_v40 (F := Ideal) x0 x1 x2 x3 x4 x5 x6 x7 x8 x9 x10 x11 x12 x13 (ix2 r q)
      = Lstm.newH (refPre x0 x1 x2 x3 x4 x5 x6 x7 x8 x9 x10 x11 x12 x13 r) (x1 (ix3 (1 : Fin 2) r q))
          (Lstm.band 128 (by decide) q) (Lstm.band 0 (by decide) q) (Lstm.band 384 (by decide) q) (Lstm.band 256 (by decide) q) := by
  rw [val_main_v40_apply, val_main_v39_apply, gate_o_at, memory_at]
  rfl

/-! ## The stack -/

/-- The reference's result is the cell of its arguments, with `W`, `U`, `b` the joined weights and biases. -/
theorem result_is_cell :
    val_main_v43 (F := Ideal) x0 x1 x2 x3 x4 x5 x6 x7 x8 x9 x10 x11 x12 x13
      = Lstm.cell (B := 131072) (φw := .f32) x0 x1 (val_main_v4 (F := Ideal) x2 x5 x8 x11) (val_main_v5 (F := Ideal) x3 x6 x9 x12)
          (val_main_v6 (F := Ideal) x4 x7 x10 x13) := by
  funext i
  obtain ⟨s, r, q, rfl⟩ : ∃ (s : Fin 2) (r : Fin 131072) (q : Fin 128), i = ix3 s r q := ⟨i 0, i 1, i 2, eq_ix3 i⟩
  unfold val_main_v43
  match s with
  | ⟨0, _⟩ =>
    refine (concatenate_pair_apply_left (t := S2x131072x128) (s₁ := S1x131072x128) (s₂ := S1x131072x128) (0 : Fin 3) _ _ _ (ix3 (0 : Fin 2) r q) rfl (ix3 (0 : Fin 1) r q)
      (fun b => match b with | ⟨0, _⟩ => rfl | ⟨1, _⟩ => rfl | ⟨2, _⟩ => rfl)).trans ?_
    rw [val_main_v41_apply, show idx_main_v41 (ix3 (0 : Fin 1) r q) = ix2 r q from
      funext fun a => match a with | ⟨0, _⟩ => rfl | ⟨1, _⟩ => rfl, hidden_at]
    exact (Lstm.cell_hidden _ _ _ _ _ r q).symm
  | ⟨1, _⟩ =>
    refine (concatenate_pair_apply_right (t := S2x131072x128) (s₁ := S1x131072x128) (s₂ := S1x131072x128) (0 : Fin 3) _ _ _ (ix3 (1 : Fin 2) r q) rfl rfl (ix3 (0 : Fin 1) r q)
      (fun b hb => match b, hb with | ⟨0, _⟩, hb => absurd rfl hb | ⟨1, _⟩, _ => rfl | ⟨2, _⟩, _ => rfl) rfl).trans ?_
    rw [val_main_v42_apply, show idx_main_v42 (ix3 (0 : Fin 1) r q) = ix2 r q from
      funext fun a => match a with | ⟨0, _⟩ => rfl | ⟨1, _⟩ => rfl, memory_at]
    exact (Lstm.cell_memory _ _ _ _ _ r q).symm

end Cert.ReferenceIdeal.RefValue

end
-- ==== Proof.lean ====
/-
  A single-step LSTM cell on 131072 rows (input width and state width 128) as a Pallas kernel, against its jnp reference.

  Both programs compute, for every row, the gate pre-activations `g = (x·W + h·U) + b` over the fused weights
  `W, U : [128, 512]` and bias `b : [512]`, then the new memory `c' = σ(g_f)·c + σ(g_i)·tanh(g_g)` and the new hidden vector
  `h' = σ(g_o)·tanh(c')`, and return the stack `[h', c']`. The kernel does it 4096 rows at a time over a grid of 32 points,
  feeding the matrix unit operands changed to a 16-bit format and applying the logistic function as one operation to
  three bands at once; the reference does it on whole arrays and spells the logistic function `1 / (1 + e^(−y))`. Over the
  extended reals a change of float format is the identity, a matrix product into a zero accumulator and `dot_general` are
  the same finite sums, and the logistic operation IS that quotient, so the two results are the same function of the
  arguments, entry by entry, with the operations in the same order: no law of arithmetic is needed to pass from one to
  the other, and the finiteness of the inputs is never used.

  The three frames: the word-level kernel and the idealized kernel run their one region to the end with every argument
  array unchanged (Proof/KernelCell.lean, Proof/KernelIdealCell.lean); the reference's frame is its run with the result
  dropped. The idealization rewrote no operation, so there is nothing to preserve. The value claim joins the idealized
  kernel's run, read as the cell of the arguments (Proof/CellRun.lean), to the reference's (Proof/RefCell.lean).
-/
import proofs.«117668_j72954314489889_2_alg».proof.Defs
import proofs.«117668_j72954314489889_2_alg».proof.Proof.Gen.Kernel
import proofs.«117668_j72954314489889_2_alg».proof.Proof.Gen.KernelIdeal
import proofs.«117668_j72954314489889_2_alg».proof.Proof.Gen.ReferenceIdeal
import proofs.«117668_j72954314489889_2_alg».proof.Proof.Gen.Pre_finite_inputs
import proofs.«117668_j72954314489889_2_alg».proof.Proof.Gen.ReferenceIdeal.Run
import proofs.«117668_j72954314489889_2_alg».proof.Proof.KernelCell
import proofs.«117668_j72954314489889_2_alg».proof.Proof.CellRun
import proofs.«117668_j72954314489889_2_alg».proof.Proof.RefCell
import Idealize.ShloMosaic.Adequacy
import Idealize.ShloMosaic.Init

noncomputable section

namespace Cert.Proof

open Idealize.ShloMosaic Idealize.SL.Sem

/-- The word-level kernel program runs to the end and leaves its arguments unchanged. -/
theorem frame_kernel : Cert.frame_Kernel := fun m ρ _ => Cert.Kernel.Cell.frame m ρ

/-- So does the idealized one. -/
theorem frame_kernel_ideal : Cert.frame_KernelIdeal := fun m ρ _ => Cert.KernelIdeal.Cell.frame m ρ

/-- The reference's frame is its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the fourteen arguments, the idealized kernel's result array and the reference's are both
    the cell of those arguments. -/
theorem algebraic : Cert.algebraic_KernelIdeal_ReferenceIdeal := by
  intro m ρ m' ρ' _ hagree
  refine ⟨fun c => Cert.KernelIdeal.CellValue.argCell m c, Cert.KernelIdeal.CellValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, Cert.ReferenceIdeal.RefValue.result_is_cell]
  obtain ⟨h0, h1, h2, h3, h4, h5, h6, h7, h8, h9, h10, h11, h12, h13⟩ := hagree c
  rw [h0, h1, h2, h3, h4, h5, h6, h7, h8, h9, h10, h11, h12, h13]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
